-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S640000 : Shape := ⟨1, ![640000]⟩
abbrev S1x128 : Shape := ⟨2, ![1, 128]⟩
abbrev S128 : Shape := ⟨1, ![128]⟩
abbrev S128x128 : Shape := ⟨2, ![128, 128]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S640000 : S_.BroadcastsInDim S640000 (![] : Fin 0 → Fin S640000.rank)
  reducesTo_S640000_S_d0 : S640000.ReducesTo [0] S_
  bcast_S_S1x128 : S_.BroadcastsInDim S1x128 (![] : Fin 0 → Fin S1x128.rank)
  reducesTo_S1x128_S_d0_1 : S1x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128 .f32) (main_arg9 : FVec F S128x128 .f32) (main_arg10 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S1x128 .f32) (main_arg8 : FVec F S128 .f32) (main_arg9 : FVec F S128x128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S1x128 .f32 := Host.absf main_arg7
  let main_cst_10 : FVec F S_ .f32 := constant S_ .f32 0x7F800000#32
  let main_v30 : FVec F S1x128 .f32 := broadcastInDim S1x128 ![] bcast_S_S1x128 main_cst_10
  let main_v31 : IVec S1x128 1 := cmpf .olt main_v29 main_v30
  let main_c_11 : IVec S_ 1 := constantI S_ 1 1#1
  let main_v32 : IVec S_ 1 := (fun x v => Host.reduce IntOp.andi x v reducesTo_S1x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S40000x128 .f32) (main_arg1 : IVec S2x640000 32) (main_arg2 : FVec F S640000 .f32) (main_arg3 : FVec F S1x128 .f32) (main_arg4 : FVec F S128 .f32) (main_arg5 : FVec F S128x128 .f32) (main_arg6 : FVec F S128 .f32) (main_arg7 : FVec F S1x128 .f32) (main_arg8 : FVec F S128 .f32) (main_arg9 : FVec F S128x128 .f32) (main_arg10 : FVec F S128 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S640000 .f32 := Host.absf main_arg2
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S1x128 .f32 := Host.absf main_arg3
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S40000x128 : Shape := ⟨2, ![40000, 128]⟩
abbrev S2x640000 : Shape := ⟨2, ![2, 640000]⟩
abbrev S640000 : Shape := ⟨1, ![640000]⟩
abbrev S1x128 : Shape := ⟨2, ![1, 128]⟩
abbrev S128 : Shape := ⟨1, ![128]⟩
abbrev S128x128 : Shape := ⟨2, ![128, 128]⟩
abbrev S1x640000 : Shape := ⟨2, ![1, 640000]⟩
abbrev S640000x1 : Shape := ⟨2, ![640000, 1]⟩
abbrev S_ : Shape := ⟨0, ![]⟩
abbrev S640000x128 : Shape := ⟨2, ![640000, 128]⟩
abbrev S8000x128 : Shape := ⟨2, ![8000, 128]⟩
abbrev S8000x1 : Shape := ⟨2, ![8000, 1]⟩
abbrev S5000x128 : Shape := ⟨2, ![5000, 128]⟩

abbrev nBuf : Space → Nat
  | .hbm => 52
  | .vmem => 32
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S640000, .f32⟩
  | .hbm, ⟨3, _⟩ => ⟨S1x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S640000, .i32⟩
  | .hbm, ⟨15, _⟩ => ⟨S640000x1, .f32⟩
  | .hbm, ⟨16, _⟩ => ⟨S_, .i32⟩
  | .hbm, ⟨17, _⟩ => ⟨S640000, .i32⟩
  | .hbm, ⟨18, _⟩ => ⟨S640000, .i1⟩
  | .hbm, ⟨19, _⟩ => ⟨S_, .i32⟩
  | .hbm, ⟨20, _⟩ => ⟨S640000, .i32⟩
  | .hbm, ⟨21, _⟩ => ⟨S640000, .i32⟩
  | .hbm, ⟨22, _⟩ => ⟨S640000, .i32⟩
  | .hbm, ⟨23, _⟩ => ⟨S640000x1, .i32⟩
  | .hbm, ⟨24, _⟩ => ⟨S640000x128, .f32⟩
  | .hbm, ⟨25, _⟩ => ⟨S1x128, .f32⟩
  | .hbm, ⟨26, _⟩ => ⟨S640000x128, .f32⟩
  | .hbm, ⟨27, _⟩ => ⟨S_, .f32⟩
  | .hbm, ⟨28, _⟩ => ⟨S40000x128, .f32⟩
  | .hbm, ⟨29, _⟩ => ⟨S640000x1, .i32⟩
  | .hbm, ⟨30, _⟩ => ⟨S40000x128, .f32⟩
  | .hbm, ⟨31, _⟩ => ⟨S128x128, .bf16⟩
  | .hbm, ⟨32, _⟩ => ⟨S1x128, .f32⟩
  | .hbm, ⟨33, _⟩ => ⟨S40000x128, .f32⟩
  | .hbm, ⟨34, _⟩ => ⟨S_, .i32⟩
  | .hbm, ⟨35, _⟩ => ⟨S640000, .i32⟩
  | .hbm, ⟨36, _⟩ => ⟨S640000, .i1⟩
  | .hbm, ⟨37, _⟩ => ⟨S_, .i32⟩
  | .hbm, ⟨38, _⟩ => ⟨S640000, .i32⟩
  | .hbm, ⟨39, _⟩ => ⟨S640000, .i32⟩
  | .hbm, ⟨40, _⟩ => ⟨S640000, .i32⟩
  | .hbm, ⟨41, _⟩ => ⟨S640000x1, .i32⟩
  | .hbm, ⟨42, _⟩ => ⟨S640000x128, .f32⟩
  | .hbm, ⟨43, _⟩ => ⟨S1x128, .f32⟩
  | .hbm, ⟨44, _⟩ => ⟨S640000x128, .f32⟩
  | .hbm, ⟨45, _⟩ => ⟨S_, .f32⟩
  | .hbm, ⟨46, _⟩ => ⟨S40000x128, .f32⟩
  | .hbm, ⟨47, _⟩ => ⟨S640000x1, .i32⟩
  | .hbm, ⟨48, _⟩ => ⟨S40000x128, .f32⟩
  | .hbm, ⟨49, _⟩ => ⟨S128x128, .bf16⟩
  | .hbm, ⟨50, _⟩ => ⟨S1x128, .f32⟩
  | .hbm, ⟨51, _⟩ => ⟨S40000x128, .f32⟩
  | .local _ .vmem, ⟨0, _⟩ => ⟨S8000x128, .f32⟩
  | .local _ .vmem, ⟨1, _⟩ => ⟨S8000x128, .f32⟩
  | .local _ .vmem, ⟨2, _⟩ => ⟨S8000x1, .f32⟩
  | .local _ .vmem, ⟨3, _⟩ => ⟨S8000x1, .f32⟩
  | .local _ .vmem, ⟨4, _⟩ => ⟨S1x128, .f32⟩
  | .local _ .vmem, ⟨5, _⟩ => ⟨S1x128, .f32⟩
  | .local _ .vmem, ⟨6, _⟩ => ⟨S8000x128, .f32⟩
  | .local _ .vmem, ⟨7, _⟩ => ⟨S8000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .bf16⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S8000x128, .f32⟩
  | .local _ .vmem, ⟨17, _⟩ => ⟨S8000x128, .f32⟩
  | .local _ .vmem, ⟨18, _⟩ => ⟨S8000x1, .f32⟩
  | .local _ .vmem, ⟨19, _⟩ => ⟨S8000x1, .f32⟩
  | .local _ .vmem, ⟨20, _⟩ => ⟨S1x128, .f32⟩
  | .local _ .vmem, ⟨21, _⟩ => ⟨S1x128, .f32⟩
  | .local _ .vmem, ⟨22, _⟩ => ⟨S8000x128, .f32⟩
  | .local _ .vmem, ⟨23, _⟩ => ⟨S8000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S128x128, .bf16⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_1 : Ref sig .tc := ⟨.hbm, 34, rfl⟩
abbrev main_v20 : Ref sig .tc := ⟨.hbm, 35, rfl⟩
abbrev main_v21 : Ref sig .tc := ⟨.hbm, 36, rfl⟩
abbrev main_c_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem4_1 : DmaSem sig := 31

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![80], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S8000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S640000_S640000x1_0 : S640000.BroadcastsInDim S640000x1 (![0] : Fin 1 → Fin S640000x1.rank)
  bcast_S_S640000 : S_.BroadcastsInDim S640000 (![] : Fin 0 → Fin S640000.rank)
  shapeCasts_S128_S1x128 : S128.ShapeCasts S1x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x128 : S8000x1.Broadcasts S8000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  bcast_S_S40000x128 : S_.BroadcastsInDim S40000x128 (![] : Fin 0 → Fin S40000x128.rank)
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S5000x128 : S1x128.Broadcasts S5000x128
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S640000x128.size a
  hwx0_0 : ∀ i : grid0.Coords, EltTy.bits .f32 = 32 ∨ (Rect.block (s := S640000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x1.size a ≤ S640000x1.size a
  hwx0_1 : ∀ i : grid0.Coords, EltTy.bits .f32 = 32 ∨ (Rect.block (s := S640000x1) S8000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8000x128.size a ≤ S640000x128.size a
  hwx0_4 : ∀ i : grid0.Coords, EltTy.bits .f32 = 32 ∨ (Rect.block (s := S640000x128) S8000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S40000x128.size a
  hwx1_0 : ∀ i : grid1.Coords, EltTy.bits .f32 = 32 ∨ (Rect.block (s := S40000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S40000x128.size a
  hwx1_1 : ∀ i : grid1.Coords, EltTy.bits .f32 = 32 ∨ (Rect.block (s := S40000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S40000x128.size a
  hwx1_4 : ∀ i : grid1.Coords, EltTy.bits .f32 = 32 ∨ (Rect.block (s := S40000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x128.size a ≤ S640000x128.size a
  hwx2_0 : ∀ i : grid2.Coords, EltTy.bits .f32 = 32 ∨ (Rect.block (s := S640000x128) S8000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x1.size a ≤ S640000x1.size a
  hwx2_1 : ∀ i : grid2.Coords, EltTy.bits .f32 = 32 ∨ (Rect.block (s := S640000x1) S8000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S8000x128.size a ≤ S640000x128.size a
  hwx2_4 : ∀ i : grid2.Coords, EltTy.bits .f32 = 32 ∨ (Rect.block (s := S640000x128) S8000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S40000x128.size a
  hwx3_0 : ∀ i : grid3.Coords, EltTy.bits .f32 = 32 ∨ (Rect.block (s := S40000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S40000x128.size a
  hwx3_1 : ∀ i : grid3.Coords, EltTy.bits .f32 = 32 ∨ (Rect.block (s := S40000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .bf16 = 32 ∨ (Rect.block (s := S128x128) S128x128.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S40000x128.size a
  hwx3_4 : ∀ i : grid3.Coords, EltTy.bits .f32 = 32 ∨ (Rect.block (s := S40000x128) S5000x128.size (cc3_transform_4 i) (hinb3_4 i)).WholeWords (EltTy.packing .f32)

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v11) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S8000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S8000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v26) S8000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S8000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v27) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v28) S8000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v19) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v31) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v32) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v33) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v34) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S640000 : Shape := ⟨1, ![640000]⟩
abbrev S1x128 : Shape := ⟨2, ![1, 128]⟩
abbrev S128 : Shape := ⟨1, ![128]⟩
abbrev S128x128 : Shape := ⟨2, ![128, 128]⟩
abbrev S1x640000 : Shape := ⟨2, ![1, 640000]⟩
abbrev S640000x1 : Shape := ⟨2, ![640000, 1]⟩
abbrev S640000x128 : Shape := ⟨2, ![640000, 128]⟩
abbrev S_ : Shape := ⟨0, ![]⟩

abbrev nBuf : Space → Nat
  | .hbm => 74
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S640000, .f32⟩
  | .hbm, ⟨3, _⟩ => ⟨S1x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S640000, .i32⟩
  | .hbm, ⟨15, _⟩ => ⟨S640000x1, .f32⟩
  | .hbm, ⟨16, _⟩ => ⟨S640000x128, .f32⟩
  | .hbm, ⟨17, _⟩ => ⟨S1x128, .f32⟩
  | .hbm, ⟨18, _⟩ => ⟨S640000x128, .f32⟩
  | .hbm, ⟨19, _⟩ => ⟨S640000x128, .f32⟩
  | .hbm, ⟨20, _⟩ => ⟨S_, .i32⟩
  | .hbm, ⟨21, _⟩ => ⟨S640000, .i32⟩
  | .hbm, ⟨22, _⟩ => ⟨S640000, .i1⟩
  | .hbm, ⟨23, _⟩ => ⟨S_, .i32⟩
  | .hbm, ⟨24, _⟩ => ⟨S640000, .i32⟩
  | .hbm, ⟨25, _⟩ => ⟨S640000, .i32⟩
  | .hbm, ⟨26, _⟩ => ⟨S640000, .i32⟩
  | .hbm, ⟨27, _⟩ => ⟨S640000x1, .i32⟩
  | .hbm, ⟨28, _⟩ => ⟨S640000x128, .f32⟩
  | .hbm, ⟨29, _⟩ => ⟨S640000x128, .f32⟩
  | .hbm, ⟨30, _⟩ => ⟨S_, .f32⟩
  | .hbm, ⟨31, _⟩ => ⟨S640000x128, .f32⟩
  | .hbm, ⟨32, _⟩ => ⟨S640000x128, .f32⟩
  | .hbm, ⟨33, _⟩ => ⟨S_, .f32⟩
  | .hbm, ⟨34, _⟩ => ⟨S40000x128, .f32⟩
  | .hbm, ⟨35, _⟩ => ⟨S640000x1, .i32⟩
  | .hbm, ⟨36, _⟩ => ⟨S40000x128, .f32⟩
  | .hbm, ⟨37, _⟩ => ⟨S40000x128, .f32⟩
  | .hbm, ⟨38, _⟩ => ⟨S40000x128, .f32⟩
  | .hbm, ⟨39, _⟩ => ⟨S1x128, .f32⟩
  | .hbm, ⟨40, _⟩ => ⟨S40000x128, .f32⟩
  | .hbm, ⟨41, _⟩ => ⟨S40000x128, .f32⟩
  | .hbm, ⟨42, _⟩ => ⟨S_, .f32⟩
  | .hbm, ⟨43, _⟩ => ⟨S40000x128, .f32⟩
  | .hbm, ⟨44, _⟩ => ⟨S40000x128, .f32⟩
  | .hbm, ⟨45, _⟩ => ⟨S640000x128, .f32⟩
  | .hbm, ⟨46, _⟩ => ⟨S1x128, .f32⟩
  | .hbm, ⟨47, _⟩ => ⟨S640000x128, .f32⟩
  | .hbm, ⟨48, _⟩ => ⟨S640000x128, .f32⟩
  | .hbm, ⟨49, _⟩ => ⟨S_, .i32⟩
  | .hbm, ⟨50, _⟩ => ⟨S640000, .i32⟩
  | .hbm, ⟨51, _⟩ => ⟨S640000, .i1⟩
  | .hbm, ⟨52, _⟩ => ⟨S_, .i32⟩
  | .hbm, ⟨53, _⟩ => ⟨S640000, .i32⟩
  | .hbm, ⟨54, _⟩ => ⟨S640000, .i32⟩
  | .hbm, ⟨55, _⟩ => ⟨S640000, .i32⟩
  | .hbm, ⟨56, _⟩ => ⟨S640000x1, .i32⟩
  | .hbm, ⟨57, _⟩ => ⟨S640000x128, .f32⟩
  | .hbm, ⟨58, _⟩ => ⟨S640000x128, .f32⟩
  | .hbm, ⟨59, _⟩ => ⟨S_, .f32⟩
  | .hbm, ⟨60, _⟩ => ⟨S640000x128, .f32⟩
  | .hbm, ⟨61, _⟩ => ⟨S640000x128, .f32⟩
  | .hbm, ⟨62, _⟩ => ⟨S_, .f32⟩
  | .hbm, ⟨63, _⟩ => ⟨S40000x128, .f32⟩
  | .hbm, ⟨64, _⟩ => ⟨S640000x1, .i32⟩
  | .hbm, ⟨65, _⟩ => ⟨S40000x128, .f32⟩
  | .hbm, ⟨66, _⟩ => ⟨S40000x128, .f32⟩
  | .hbm, ⟨67, _⟩ => ⟨S40000x128, .f32⟩
  | .hbm, ⟨68, _⟩ => ⟨S1x128, .f32⟩
  | .hbm, ⟨69, _⟩ => ⟨S40000x128, .f32⟩
  | .hbm, ⟨70, _⟩ => ⟨S40000x128, .f32⟩
  | .hbm, ⟨71, _⟩ => ⟨S_, .f32⟩
  | .hbm, ⟨72, _⟩ => ⟨S40000x128, .f32⟩
  | .hbm, ⟨73, _⟩ => ⟨S40000x128, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_c_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call0_cst : Ref sig .tc := ⟨.hbm, 30, rfl⟩
abbrev main_call0_v0 : Ref sig .tc := ⟨.hbm, 31, rfl⟩
abbrev main_v17 : Ref sig .tc := ⟨.hbm, 32, rfl⟩
abbrev main_cst : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_call1_cst : Ref sig .tc := ⟨.hbm, 42, rfl⟩
abbrev main_call1_v0 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_1 : Ref sig .tc := ⟨.hbm, 49, rfl⟩
abbrev main_v31 : Ref sig .tc := ⟨.hbm, 50, rfl⟩
abbrev main_v32 : Ref sig .tc := ⟨.hbm, 51, rfl⟩
abbrev main_c_2 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_call2_cst : Ref sig .tc := ⟨.hbm, 59, rfl⟩
abbrev main_call2_v0 : Ref sig .tc := ⟨.hbm, 60, rfl⟩
abbrev main_v39 : Ref sig .tc := ⟨.hbm, 61, rfl⟩
abbrev main_cst_3 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_call3_cst : Ref sig .tc := ⟨.hbm, 71, rfl⟩
abbrev main_call3_v0 : Ref sig .tc := ⟨.hbm, 72, rfl⟩
abbrev main_v48 : Ref sig .tc := ⟨.hbm, 73, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S640000_S640000x1_0 : S640000.BroadcastsInDim S640000x1 (![0] : Fin 1 → Fin S640000x1.rank)
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000 : S_.BroadcastsInDim S640000 (![] : Fin 0 → Fin S640000.rank)
  bcast_S_S640000x128 : S_.BroadcastsInDim S640000x128 (![] : Fin 0 → Fin S640000x128.rank)
  bcast_S_S40000x128 : S_.BroadcastsInDim S40000x128 (![] : Fin 0 → Fin S40000x128.rank)
  bcast_S1x128_S40000x128_0_1 : S1x128.BroadcastsInDim S40000x128 (![0, 1] : Fin 2 → Fin S40000x128.rank)
  dot_S640000x1_S1x128_S640000x128_1_0_0_1_n_n_wf : DotDims.WF S640000x1 S1x128 S640000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S40000x128_S128x128_S40000x128_1_0_0_1_n_n_wf : DotDims.WF S40000x128 S128x128 S40000x128 [1] [0] [0] [1] [] []

variable [Facts₀]

def dot_S640000x1_S1x128_S640000x128_1_0_0_1_n_n : DotDims S640000x1 S1x128 S640000x128 where
  lhsContracting := [1]
  rhsContracting := [0]
  lhsNonContracting := [0]
  rhsNonContracting := [1]
  lhsBatch := []
  rhsBatch := []
  wf := dot_S640000x1_S1x128_S640000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf

class Facts : Prop extends Facts₀ where

variable [Facts]
-- ==== Proof.RunAtEnd.lean ====
/-
  The idealized kernel's run, with its result named.

  The program is four kernel launches with stretches of host operations between them. Its buffer contents are
  known at every boundary: after a host stretch they are the stretch's operations folded over the contents
  before it, after a launch they are the contents before it with the launch's arrays replaced by what the
  pipeline leaves in them. The last of these boundaries is the program's end. Every weakly fair execution
  terminates there, so the result buffer ends at its contents in that last boundary state, and the argument
  buffers end as they were launched.
-/
import proofs.«167210_j37340445671820_1_alg».proof.Proof.Gen.KernelIdeal.Frame

set_option maxRecDepth 16384

noncomputable section

namespace Cert.KernelIdeal.Bridge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result buffer at its contents in the last boundary state
    (the state after the fourth launch) and every argument buffer as launched. -/
theorem run_result_at_end : θ_run defs (onTc (τ := τ) (main (F := F))) ⟨m, fun _ => 0, ρ⟩ (fun r => ∀ c : Dev nD,
      r.2.mem ((c.tc : Thread nD τ).loc main_v34) = W8 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v34 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c)⟩)

end Cert.KernelIdeal.Bridge

end
-- ==== Proof.LibDenseRows.lean ====
/-
  General lemmas for a kernel that pushes tokens (rows) through dense layers and a row normalisation, all read at the
  exact (extended) reals, where every float operation is the textbook one:

  * the keepdims column forms: an `[a]` vector viewed as a column `[a, 1]`, and a column `[a, 1]` broadcast along
    the rows of an `[a, b]` array;
  * the sum of an `[a, b]` array along its second axis, read at a row, is the sum over that row;
  * a matrix product of an `[M, K]` array with an `[N, K]` array contracting BOTH second axes (the weight stored
    output-major, as a linear layer keeps it), accumulated into zero, read at `(r, c)`, is `Σ_k lhs (r, k) · rhs (c, k)`;
  * one dense layer: that product plus a bias row `[1, N]` broadcast over the rows.

  Nothing here mentions a particular program: the extents are variables, only ranks and axis lists are literal.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibDenseRows

open Idealize.ShloMosaic Idealize.ShloMosaic.ValueIdx

/-! ## The keepdims column forms -/

section Layout
variable {α : Type}

/-- An `[a]` array cast to a column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A row's sum -/

/-- The sum of an `[a, b]` array along its second axis, at the exact reals, read at row `r`: the sum over that row
    (the accumulator word is the sum's neutral element, so it contributes nothing). -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src ?_
  funext ax; apply Fin.ext
  match ax with
  | ⟨0, _⟩ => rfl
  | ⟨1, _⟩ => rfl

/-! ## A product against an output-major weight -/

section Dense
variable {M K N : ℕ} {φ₁ φ₂ : FTy}

/-- The dimension numbers of `[M, K] · [N, K]ᵀ`: both second axes contracted, no batch axis. -/
abbrev dimsNT (wf : DotDims.WF (⟨2, ![M, K]⟩ : Shape) ⟨2, ![N, K]⟩ ⟨2, ![M, N]⟩ [1] [1] [0] [0] [] []) :
    DotDims (⟨2, ![M, K]⟩ : Shape) ⟨2, ![N, K]⟩ ⟨2, ![M, N]⟩ :=
  ⟨[1], [1], [0], [0], [], [], wf⟩

variable (wf : DotDims.WF (⟨2, ![M, K]⟩ : Shape) ⟨2, ![N, K]⟩ ⟨2, ![M, N]⟩ [1] [1] [0] [0] [] [])

theorem dimsNT_lhs0 (j : (⟨2, ![M, N]⟩ : Shape).Idx) (q : (dimsNT wf).contr.Idx) :
    ((dimsNT wf).lhsIdx j q 0).val = (j 0).val := by
  unfold DotDims.lhsIdx
  rw [dif_neg (show ¬(0 : Fin (⟨2, ![M, K]⟩ : Shape).rank) ∈ (dimsNT wf).lhsBatch from List.not_mem_nil),
    dif_pos (show (0 : Fin (⟨2, ![M, K]⟩ : Shape).rank) ∈ (dimsNT wf).lhsNonContracting from List.mem_singleton.mpr rfl)]
  rfl
theorem dimsNT_lhs1 (j : (⟨2, ![M, N]⟩ : Shape).Idx) (q : (dimsNT wf).contr.Idx) :
    ((dimsNT wf).lhsIdx j q 1).val = (q ⟨0, Nat.one_pos⟩).val :=
  (dimsNT wf).lhsIdx_val_of_single rfl j q
theorem dimsNT_rhs0 (j : (⟨2, ![M, N]⟩ : Shape).Idx) (q : (dimsNT wf).contr.Idx) :
    ((dimsNT wf).rhsIdx j q 0).val = (j 1).val := by
  unfold DotDims.rhsIdx
  rw [dif_neg (show ¬(0 : Fin (⟨2, ![N, K]⟩ : Shape).rank) ∈ (dimsNT wf).rhsBatch from List.not_mem_nil),
    dif_pos (show (0 : Fin (⟨2, ![N, K]⟩ : Shape).rank) ∈ (dimsNT wf).rhsNonContracting from List.mem_singleton.mpr rfl)]
  rfl
theorem dimsNT_rhs1 (j : (⟨2, ![M, N]⟩ : Shape).Idx) (q : (dimsNT wf).contr.Idx) :
    ((dimsNT wf).rhsIdx j q 1).val = (q ⟨0, Nat.one_pos⟩).val :=
  (dimsNT wf).rhsIdx_val_of_single rfl j q

/-- THE PRODUCT READ AT `(r, c)`: accumulated into the zero splat it is `Σ_k lhs (r, k) · rhs (c, k)` — a sum over a
    `Fin K` in which no order of accumulation is left. -/
theorem matmulNT_zero_apply (prec : Option ContractPrecision) (lhs : FVec Ideal ⟨2, ![M, K]⟩ φ₁)
    (rhs : FVec Ideal ⟨2, ![N, K]⟩ φ₂) (r : Fin M) (c : Fin N) :
    FloatOps.matmul (dimsNT wf) prec lhs rhs (constant ⟨2, ![M, N]⟩ .f32 0x00000000#32) (ix2 r c)
      = ∑ k : Fin K, lhs (ix2 r k) * rhs (ix2 c k) := by
  rw [Ideal.matmul_constant_zero_apply, ← Equiv.sum_comp (contrEquiv1 (dimsNT wf) K rfl rfl).symm]
  refine Finset.sum_congr rfl fun k _ => ?_
  have hk := contrEquiv1_symm_val (dimsNT wf) K rfl rfl k
  have el : (dimsNT wf).lhsIdx (ix2 r c) ((contrEquiv1 (dimsNT wf) K rfl rfl).symm k) = ix2 r k :=
    funext fun a => Fin.ext (by
      match a with
      | ⟨0, _⟩ => exact dimsNT_lhs0 wf _ _
      | ⟨1, _⟩ => exact (dimsNT_lhs1 wf _ _).trans hk)
  have er : (dimsNT wf).rhsIdx (ix2 r c) ((contrEquiv1 (dimsNT wf) K rfl rfl).symm k) = ix2 c k :=
    funext fun a => Fin.ext (by
      match a with
      | ⟨0, _⟩ => exact dimsNT_rhs0 wf _ _
      | ⟨1, _⟩ => exact (dimsNT_rhs1 wf _ _).trans hk)
  rw [el, er]

/-- ONE DENSE LAYER on a tile of `M` tokens: the product into zero plus a bias row `[1, N]` broadcast over the rows,
    read at token `r` and output unit `c`, is `Σ_k lhs (r, k) · rhs (c, k) + bias (0, c)`. -/
theorem denseNT_apply (prec : Option ContractPrecision) (lhs : FVec Ideal ⟨2, ![M, K]⟩ φ₁)
    (rhs : FVec Ideal ⟨2, ![N, K]⟩ φ₂) (bias : FVec Ideal ⟨2, ![1, N]⟩ .f32)
    (hb : (⟨2, ![1, N]⟩ : Shape).Broadcasts ⟨2, ![M, N]⟩) (r : Fin M) (c : Fin N) :
    addf (matmul (dimsNT wf) prec lhs rhs (constant ⟨2, ![M, N]⟩ .f32 0x00000000#32)) (broadcastTo ⟨2, ![M, N]⟩ bias hb) (ix2 r c)
      = ∑ k : Fin K, lhs (ix2 r k) * rhs (ix2 c k) + bias (ix2 (0 : Fin 1) c) := by
  rw [addf_apply, broadcastTo_1b_ab_apply]
  exact congrArg (· + bias (ix2 (0 : Fin 1) c)) (matmulNT_zero_apply wf prec lhs rhs r c)

end Dense

end Cert.LibDenseRows

end
-- ==== Proof.EdgeTile.lean ====
/-
  One tile of the edge-message kernel, read at an index.

  The kernel's body takes a tile of gathered source-node rows `x` (8000 × 128), the tile's column of edge weights
  `a` (8000 × 1), the edge-embedding weight row `w` and bias row `b` (1 × 128 each) and stores
  `max (x + (a · w + b), 0)`, the column broadcast along the rows and the two rows broadcast down the columns.
  Entry `(p, q)` of the stored tile is therefore `max (x (p, q) + (a (p, 0) · w (0, q) + b (0, q)), 0)`.
  Both launches of this kernel (one per layer) have the same body.
-/
import proofs.«167210_j37340445671820_1_alg».proof.Proof.Gen.KernelIdeal.Skeleton
import proofs.«167210_j37340445671820_1_alg».proof.Proof.LibDenseRows

noncomputable section

namespace Cert.KernelIdeal.Bridge

open Cert.KernelIdeal Cert.KernelIdeal.Gen
open Idealize.ShloMosaic Idealize.ShloMosaic.ValueIdx

/-- The message of edge row `p` at feature `q`: the gathered source entry plus the edge's embedding, clamped at zero. -/
def edgeEntry (x : S8000x128.Idx → EReal) (a : S8000x1.Idx → EReal) (w b : S1x128.Idx → EReal) (j : S8000x128.Idx) : EReal :=
  max (x j + (a (ix2 (j 0) (0 : Fin 1)) * w (ix2 (0 : Fin 1) (j 1)) + b (ix2 (0 : Fin 1) (j 1)))) (Ideal.ofBits .f32 0x00000000#32)

/-- The first layer's edge-message tile at an index. -/
theorem edge_tile_first (x : Vec Ideal S8000x128 .f32) (a : Vec Ideal S8000x1 .f32) (w b : Vec Ideal S1x128 .f32)
    (j : S8000x128.Idx) : k0_pay1 (F := Ideal) x a w b j = edgeEntry x a w b j := by
  obtain ⟨p, q, rfl⟩ : ∃ (p : Fin 8000) (q : Fin 128), j = ix2 p q := ⟨j 0, j 1, eq_ix2 j⟩
  unfold k0_pay1 edgeEntry
  simp only [shapeCast_self]
  show max (x (ix2 p q) + (broadcastTo S8000x128 a broadcasts_S8000x1_S8000x128 (ix2 p q)
      * broadcastTo S8000x128 w broadcasts_S1x128_S8000x128 (ix2 p q)
      + broadcastTo S8000x128 b broadcasts_S1x128_S8000x128 (ix2 p q))) _ = _
  rw [Cert.LibDenseRows.broadcastTo_a1_ab_apply, broadcastTo_1b_ab_apply, broadcastTo_1b_ab_apply]
  rfl

/-- The second layer's edge-message tile at an index: the same body. -/
theorem edge_tile_second (x : Vec Ideal S8000x128 .f32) (a : Vec Ideal S8000x1 .f32) (w b : Vec Ideal S1x128 .f32)
    (j : S8000x128.Idx) : k2_pay1 (F := Ideal) x a w b j = edgeEntry x a w b j :=
  edge_tile_first x a w b j

end Cert.KernelIdeal.Bridge

end
-- ==== Proof.EdgeLaunch.lean ====
/-
  The edge-message launches: from the tile to the whole array.

  A launch runs the tile body at 80 grid points; point `t` reads rows `8000 t … 8000 t + 7999` of the gathered
  source rows and of the edge-weight column, the whole of the two parameter rows, and writes back rows
  `8000 t … 8000 t + 7999` of the output. The 80 blocks tile the 640000 rows, so after the launch the output array is,
  at every edge `e` and feature `d`,
      max (x_src (e, d) + (a (e, 0) · w (0, d) + b (0, d)), 0),
  a function of the four operand arrays as the launch found them. Those operand arrays are left as a parameter here
  (the contents of the core's buffers when the launch is entered).
-/
import proofs.«167210_j37340445671820_1_alg».proof.Proof.Gen.KernelIdeal.Frame
import proofs.«167210_j37340445671820_1_alg».proof.Proof.EdgeTile

set_option maxRecDepth 16384

noncomputable section

namespace Cert.KernelIdeal.Bridge

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The whole array of edge messages: at edge `e` and feature `d`, the gathered source entry plus the edge's
    embedding `a (e) · w (d) + b (d)`, clamped at zero. -/
def edgeMsg (x : S640000x128.Idx → EReal) (a : S640000x1.Idx → EReal) (w b : S1x128.Idx → EReal) : S640000x128.Idx → EReal :=
  fun i => max (x i + (a (ix2 (i 0) (0 : Fin 1)) * w (ix2 (0 : Fin 1) (i 1)) + b (ix2 (0 : Fin 1) (i 1)))) (Ideal.ofBits .f32 0x00000000#32)

theorem hz : (![0, 0] : Fin 2 → Nat) = fun _ => 0 := funext fun a => by fin_cases a <;> rfl

variable (V : (c : Dev nD) → (b : Ref sig .tc) → Buf (Elt Ideal) ((c : Thread nD τ).loc b))

/-! ## Launch 0 -/

/-- The index maps of launch 0, decided over its 80 grid points: the gathered rows, the weight column and the
    output move together, block `t` at point `t`; the two parameter rows stay at block 0. -/
theorem edge0_maps : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What point `t` of launch 0 writes back is block `t` of the whole array of edge messages computed from the
    launch's four operand arrays as it finds them. -/
theorem edge0_written (c : Dev nD) (t : Fin cfg0.N) :
    (dat0 V c).flushed 4 t = ((cfg0.win 4).blk t).view.read (Elt Ideal)
      (edgeMsg (V c main_v11) (V c main_v4) (V c main_arg3) (V c main_v12)) := by
  show (cfg0.win 4).cut (grid0.coords t) ((dat0 V c).after 4 t) = _
  rw [after0_4]
  unfold out0_4
  rw [View.canon_unit_zero hz]
  simp only [View.ld_unit_zero (S := S8000x128) hz, View.ld_unit_zero (S := S8000x1) hz, View.ld_unit_zero (S := S1x128) hz]
  obtain ⟨e00, e01, e10, e11, e20, e21, e30, e31, e40, e41⟩ := edge0_maps t
  funext j
  refine (edge_tile_first _ _ _ _ j).trans ?_
  have hj0 : (j 0).val < 8000 := (j 0).isLt
  have hj1 : (j 1).val < 128 := (j 1).isLt
  have h0 : ((cfg0.win 0).blk t).view.emb j = ((cfg0.win 4).blk t).view.emb j := by
    funext a; apply Fin.ext
    match a with
    | ⟨0, _⟩ => show win0_0.index t (0 : Fin 2) * 8000 + 1 * (j 0).val = win0_4.index t (0 : Fin 2) * 8000 + 1 * (j 0).val; omega
    | ⟨1, _⟩ => show win0_0.index t (1 : Fin 2) * 128 + 1 * (j 1).val = win0_4.index t (1 : Fin 2) * 128 + 1 * (j 1).val; omega
  have h1 : ((cfg0.win 1).blk t).view.emb (ix2 (j 0) (0 : Fin 1)) = ix2 ((((cfg0.win 4).blk t).view.emb j) 0) (0 : Fin 1) := by
    funext a; apply Fin.ext
    match a with
    | ⟨0, _⟩ => show win0_1.index t (0 : Fin 2) * 8000 + 1 * (j 0).val = win0_4.index t (0 : Fin 2) * 8000 + 1 * (j 0).val; omega
    | ⟨1, _⟩ => show win0_1.index t (1 : Fin 2) * 1 + 1 * 0 = 0; omega
  have h2 : ((cfg0.win 2).blk t).view.emb (ix2 (0 : Fin 1) (j 1)) = ix2 (0 : Fin 1) ((((cfg0.win 4).blk t).view.emb j) 1) := by
    funext a; apply Fin.ext
    match a with
    | ⟨0, _⟩ => show win0_2.index t (0 : Fin 2) * 1 + 1 * 0 = 0; omega
    | ⟨1, _⟩ => show win0_2.index t (1 : Fin 2) * 128 + 1 * (j 1).val = win0_4.index t (1 : Fin 2) * 128 + 1 * (j 1).val; omega
  have h3 : ((cfg0.win 3).blk t).view.emb (ix2 (0 : Fin 1) (j 1)) = ix2 (0 : Fin 1) ((((cfg0.win 4).blk t).view.emb j) 1) := by
    funext a; apply Fin.ext
    match a with
    | ⟨0, _⟩ => show win0_3.index t (0 : Fin 2) * 1 + 1 * 0 = 0; omega
    | ⟨1, _⟩ => show win0_3.index t (1 : Fin 2) * 128 + 1 * (j 1).val = win0_4.index t (1 : Fin 2) * 128 + 1 * (j 1).val; omega
  have key : ∀ (X : S640000x128.Idx → EReal) (A : S640000x1.Idx → EReal) (Wr Br : S1x128.Idx → EReal),
      edgeEntry (fun y => X (((cfg0.win 0).blk t).view.emb y)) (fun y => A (((cfg0.win 1).blk t).view.emb y))
          (fun y => Wr (((cfg0.win 2).blk t).view.emb y)) (fun y => Br (((cfg0.win 3).blk t).view.emb y)) j
        = edgeMsg X A Wr Br (((cfg0.win 4).blk t).view.emb j) := by
    intro X A Wr Br
    unfold edgeEntry edgeMsg
    dsimp only
    rw [h0, h1, h2, h3]
    rfl
  exact key (V c main_v11) (V c main_v4) (V c main_arg3) (V c main_v12)

/-- An index of the output array lies in point `t`'s block iff each coordinate lies in the block's range. -/
theorem edge0_in_block (t : Fin cfg0.N) (i : S640000x128.Idx) :
    i ∈ ((cfg0.win 4).blk t).view.set ↔ ∀ a : Fin 2, win0_4.index t a * S8000x128.size a ≤ (i a).val
      ∧ (i a).val < win0_4.index t a * S8000x128.size a + S8000x128.size a := by
  show i ∈ ((View.whole main_v13).slice (win0_4.rect t)).set ↔ _
  rw [View.set_slice_whole, Rect.mem_set_unit]
  exact Iff.rfl

/-- Every row of the output array is written: row `r` by point `r / 8000`. -/
theorem edge0_covered (i : S640000x128.Idx) :
    ∃ t : Fin cfg0.N, (cfg0.win 4).flush t = true ∧ i ∈ ((cfg0.win 4).blk t).view.set := by
  have hi0 : (i 0).val < 640000 := (i 0).isLt
  have hi1 : (i 1).val < 128 := (i 1).isLt
  have hN : cfg0.N = 80 := N_0
  refine ⟨⟨(i 0).val / 8000, by rw [hN]; omega⟩, flush0_4 _, ?_⟩
  rw [edge0_in_block]
  obtain ⟨-, -, -, -, -, -, -, -, e40, e41⟩ := edge0_maps ⟨(i 0).val / 8000, by rw [hN]; omega⟩
  intro a
  match a with
  | ⟨0, _⟩ =>
    show win0_4.index ⟨(i 0).val / 8000, _⟩ (0 : Fin 2) * 8000 ≤ (i 0).val
      ∧ (i 0).val < win0_4.index ⟨(i 0).val / 8000, _⟩ (0 : Fin 2) * 8000 + 8000
    rw [e40]; show (i 0).val / 8000 * 8000 ≤ (i 0).val ∧ (i 0).val < (i 0).val / 8000 * 8000 + 8000; omega
  | ⟨1, _⟩ =>
    show win0_4.index ⟨(i 0).val / 8000, _⟩ (1 : Fin 2) * 128 ≤ (i 1).val
      ∧ (i 1).val < win0_4.index ⟨(i 0).val / 8000, _⟩ (1 : Fin 2) * 128 + 128
    rw [e41]; omega

/-- THE OUTPUT ARRAY after launch 0: the edge messages of the launch's operand arrays, whole. -/
theorem edge0_array (c : Dev nD) :
    (dat0 V c).arrAt 4 cfg0.N = edgeMsg (V c main_v11) (V c main_v4) (V c main_arg3) (V c main_v12) :=
  (dat0 V c).arrAt_eq_of_cover 4 _ (fun t _ => edge0_written V c t) edge0_covered

/-! ## Launch 2 -/

/-- The index maps of launch 2, decided over its 80 grid points: the gathered rows, the weight column and the
    output move together, block `t` at point `t`; the two parameter rows stay at block 0. -/
theorem edge2_maps : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What point `t` of launch 2 writes back is block `t` of the whole array of edge messages computed from the
    launch's four operand arrays as it finds them. -/
theorem edge2_written (c : Dev nD) (t : Fin cfg2.N) :
    (dat2 V c).flushed 4 t = ((cfg2.win 4).blk t).view.read (Elt Ideal)
      (edgeMsg (V c main_v26) (V c main_v4) (V c main_arg7) (V c main_v27)) := by
  show (cfg2.win 4).cut (grid2.coords t) ((dat2 V c).after 4 t) = _
  rw [after2_4]
  unfold out2_4
  rw [View.canon_unit_zero hz]
  simp only [View.ld_unit_zero (S := S8000x128) hz, View.ld_unit_zero (S := S8000x1) hz, View.ld_unit_zero (S := S1x128) hz]
  obtain ⟨e00, e01, e10, e11, e20, e21, e30, e31, e40, e41⟩ := edge2_maps t
  funext j
  refine (edge_tile_second _ _ _ _ j).trans ?_
  have hj0 : (j 0).val < 8000 := (j 0).isLt
  have hj1 : (j 1).val < 128 := (j 1).isLt
  have h0 : ((cfg2.win 0).blk t).view.emb j = ((cfg2.win 4).blk t).view.emb j := by
    funext a; apply Fin.ext
    match a with
    | ⟨0, _⟩ => show win2_0.index t (0 : Fin 2) * 8000 + 1 * (j 0).val = win2_4.index t (0 : Fin 2) * 8000 + 1 * (j 0).val; omega
    | ⟨1, _⟩ => show win2_0.index t (1 : Fin 2) * 128 + 1 * (j 1).val = win2_4.index t (1 : Fin 2) * 128 + 1 * (j 1).val; omega
  have h1 : ((cfg2.win 1).blk t).view.emb (ix2 (j 0) (0 : Fin 1)) = ix2 ((((cfg2.win 4).blk t).view.emb j) 0) (0 : Fin 1) := by
    funext a; apply Fin.ext
    match a with
    | ⟨0, _⟩ => show win2_1.index t (0 : Fin 2) * 8000 + 1 * (j 0).val = win2_4.index t (0 : Fin 2) * 8000 + 1 * (j 0).val; omega
    | ⟨1, _⟩ => show win2_1.index t (1 : Fin 2) * 1 + 1 * 0 = 0; omega
  have h2 : ((cfg2.win 2).blk t).view.emb (ix2 (0 : Fin 1) (j 1)) = ix2 (0 : Fin 1) ((((cfg2.win 4).blk t).view.emb j) 1) := by
    funext a; apply Fin.ext
    match a with
    | ⟨0, _⟩ => show win2_2.index t (0 : Fin 2) * 1 + 1 * 0 = 0; omega
    | ⟨1, _⟩ => show win2_2.index t (1 : Fin 2) * 128 + 1 * (j 1).val = win2_4.index t (1 : Fin 2) * 128 + 1 * (j 1).val; omega
  have h3 : ((cfg2.win 3).blk t).view.emb (ix2 (0 : Fin 1) (j 1)) = ix2 (0 : Fin 1) ((((cfg2.win 4).blk t).view.emb j) 1) := by
    funext a; apply Fin.ext
    match a with
    | ⟨0, _⟩ => show win2_3.index t (0 : Fin 2) * 1 + 1 * 0 = 0; omega
    | ⟨1, _⟩ => show win2_3.index t (1 : Fin 2) * 128 + 1 * (j 1).val = win2_4.index t (1 : Fin 2) * 128 + 1 * (j 1).val; omega
  have key : ∀ (X : S640000x128.Idx → EReal) (A : S640000x1.Idx → EReal) (Wr Br : S1x128.Idx → EReal),
      edgeEntry (fun y => X (((cfg2.win 0).blk t).view.emb y)) (fun y => A (((cfg2.win 1).blk t).view.emb y))
          (fun y => Wr (((cfg2.win 2).blk t).view.emb y)) (fun y => Br (((cfg2.win 3).blk t).view.emb y)) j
        = edgeMsg X A Wr Br (((cfg2.win 4).blk t).view.emb j) := by
    intro X A Wr Br
    unfold edgeEntry edgeMsg
    dsimp only
    rw [h0, h1, h2, h3]
    rfl
  exact key (V c main_v26) (V c main_v4) (V c main_arg7) (V c main_v27)

/-- An index of the output array lies in point `t`'s block iff each coordinate lies in the block's range. -/
theorem edge2_in_block (t : Fin cfg2.N) (i : S640000x128.Idx) :
    i ∈ ((cfg2.win 4).blk t).view.set ↔ ∀ a : Fin 2, win2_4.index t a * S8000x128.size a ≤ (i a).val
      ∧ (i a).val < win2_4.index t a * S8000x128.size a + S8000x128.size a := by
  show i ∈ ((View.whole main_v28).slice (win2_4.rect t)).set ↔ _
  rw [View.set_slice_whole, Rect.mem_set_unit]
  exact Iff.rfl

/-- Every row of the output array is written: row `r` by point `r / 8000`. -/
theorem edge2_covered (i : S640000x128.Idx) :
    ∃ t : Fin cfg2.N, (cfg2.win 4).flush t = true ∧ i ∈ ((cfg2.win 4).blk t).view.set := by
  have hi0 : (i 0).val < 640000 := (i 0).isLt
  have hi1 : (i 1).val < 128 := (i 1).isLt
  have hN : cfg2.N = 80 := N_2
  refine ⟨⟨(i 0).val / 8000, by rw [hN]; omega⟩, flush2_4 _, ?_⟩
  rw [edge2_in_block]
  obtain ⟨-, -, -, -, -, -, -, -, e40, e41⟩ := edge2_maps ⟨(i 0).val / 8000, by rw [hN]; omega⟩
  intro a
  match a with
  | ⟨0, _⟩ =>
    show win2_4.index ⟨(i 0).val / 8000, _⟩ (0 : Fin 2) * 8000 ≤ (i 0).val
      ∧ (i 0).val < win2_4.index ⟨(i 0).val / 8000, _⟩ (0 : Fin 2) * 8000 + 8000
    rw [e40]; show (i 0).val / 8000 * 8000 ≤ (i 0).val ∧ (i 0).val < (i 0).val / 8000 * 8000 + 8000; omega
  | ⟨1, _⟩ =>
    show win2_4.index ⟨(i 0).val / 8000, _⟩ (1 : Fin 2) * 128 ≤ (i 1).val
      ∧ (i 1).val < win2_4.index ⟨(i 0).val / 8000, _⟩ (1 : Fin 2) * 128 + 128
    rw [e41]; omega

/-- THE OUTPUT ARRAY after launch 2: the edge messages of the launch's operand arrays, whole. -/
theorem edge2_array (c : Dev nD) :
    (dat2 V c).arrAt 4 cfg2.N = edgeMsg (V c main_v26) (V c main_v4) (V c main_arg7) (V c main_v27) :=
  (dat2 V c).arrAt_eq_of_cover 4 _ (fun t _ => edge2_written V c t) edge2_covered

end Cert.KernelIdeal.Bridge

end
-- ==== Proof.LibPlainDot.lean ====
/-
  A matrix product whose dimension numbers are the plain ones — rows by one contracted axis times that axis by
  columns, no batch axis — read at an output index (r, c): the sum over the contracted coordinate k of
  left (r, k) times right (k, c). Stated for any dimension record with those axis lists, so that a kernel's
  tile product and a host's whole product are both this one sum over `Fin K`.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : Nat}

/-- The contraction sum of a plain product is the sum over the one contracted coordinate. -/
theorem contr_sum (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have h1 : d.lhsContracting = [1] := by rw [← hd]
  have h2 : d.rhsContracting = [0] := by rw [← hd]
  have hr : d.contr.rank = 1 := by rw [← hd]; rfl
  have hs : d.contr.size ⟨0, by omega⟩ = K := by subst hd; rfl
  rw [← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun a => Fin.ext (by
    match a with
    | ⟨0, _⟩ =>
      subst hd
      unfold DotDims.lhsIdx
      rw [dif_neg (by exact List.not_mem_nil), dif_pos (by exact List.mem_singleton.mpr rfl)]
      rfl
    | ⟨1, _⟩ => exact (d.lhsIdx_val_of_single h1 j _).trans hk)
  have er : d.rhsIdx j ((contrEquiv1 d K hr hs).symm k) = ix2 k (j 1) := funext fun a => Fin.ext (by
    match a with
    | ⟨0, _⟩ => exact (d.rhsIdx_val_of_single h2 j _).trans hk
    | ⟨1, _⟩ =>
      subst hd
      unfold DotDims.rhsIdx
      rw [dif_neg (by exact List.not_mem_nil), dif_pos (by exact List.mem_singleton.mpr rfl)]
      rfl)
  exact congrArg₂ (· * ·) (congrArg l el) (congrArg r er)

/-- A host product with plain dimension numbers, at the exact reals, read at an index. -/
theorem dotGeneral_plain {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral d prec sched l r j = ∑ k : Fin K, l (ix2 (j 0) k) * r (ix2 k (j 1)) :=
  (Ideal.dotGeneral_apply d prec sched l r j).trans (contr_sum d h1 h2 h3 h4 h5 h6 l r j)

/-- A tile product into the zero accumulator with plain dimension numbers, at the exact reals, read at an index. -/
theorem matmul_zero_plain {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (l : FVec Ideal ⟨2, ![M, K]⟩ φ₁) (r : FVec Ideal ⟨2, ![K, N]⟩ φ₂) (j : (⟨2, ![M, N]⟩ : Shape).Idx) :
    FloatOps.matmul d prec l r (constant (F := Ideal) ⟨2, ![M, N]⟩ .f32 0x00000000#32) j
      = ∑ k : Fin K, l (ix2 (j 0) k) * r (ix2 k (j 1)) :=
  (Ideal.matmul_constant_zero_apply d prec l r j).trans (contr_sum d h1 h2 h3 h4 h5 h6 l r j)

end Idealize.ShloMosaic.PlainDot

end
-- ==== Proof.NodeTile.lean ====
/-
  One tile of the node-update kernel, read at an index.

  The kernel's body takes a tile of node rows `x` and of aggregated messages `g` (5000 × 128 each), the layer's
  weight `W` (128 × 128) and its bias row `b` (1 × 128) and stores `max ((x + g) · W + b, 0)`: the sum is
  narrowed before the product and the weight arrives narrowed, which at the exact reals changes nothing, and the
  product is accumulated into zero. Entry `(p, q)` of the stored tile is therefore
  `max (Σ_k (x (p, k) + g (p, k)) · W (k, q) + b (0, q), 0)`.
  The two launches of this kernel differ only by an identity reshape of `x`.
-/
import proofs.«167210_j37340445671820_1_alg».proof.Proof.Gen.KernelIdeal.Skeleton
import proofs.«167210_j37340445671820_1_alg».proof.Proof.LibDenseRows
import proofs.«167210_j37340445671820_1_alg».proof.Proof.LibPlainDot

noncomputable section

namespace Cert.KernelIdeal.Bridge

open Cert.KernelIdeal Cert.KernelIdeal.Gen
open Idealize.ShloMosaic Idealize.ShloMosaic.ValueIdx

/-- The updated node row `p` at feature `q`. -/
def nodeEntry (x g : S5000x128.Idx → EReal) (W : S128x128.Idx → EReal) (b : S1x128.Idx → EReal) (j : S5000x128.Idx) : EReal :=
  max ((∑ k : Fin 128, (x (ix2 (j 0) k) + g (ix2 (j 0) k)) * W (ix2 k (j 1))) + b (ix2 (0 : Fin 1) (j 1))) (Ideal.ofBits .f32 0x00000000#32)

/-- The product of the narrowed sum with the narrowed weight, accumulated into zero, at an index. -/
theorem tile_product (x g : FVec Ideal S5000x128 .f32) (W : FVec Ideal S128x128 .bf16) (j : S5000x128.Idx) :
    matmul (F := Ideal) dot_S5000x128_S128x128_S5000x128_1_0_0_1_n_n none (truncf .bf16 (addf x g) bitsLt_bf16_f32) W
        (constant S5000x128 .f32 0x00000000#32) j
      = ∑ k : Fin 128, (x (ix2 (j 0) k) + g (ix2 (j 0) k)) * W (ix2 k (j 1)) :=
  PlainDot.matmul_zero_plain dot_S5000x128_S128x128_S5000x128_1_0_0_1_n_n rfl rfl rfl rfl rfl rfl none
    (truncf .bf16 (addf x g) bitsLt_bf16_f32 : FVec Ideal S5000x128 .bf16) W j

/-- The first layer's node-update tile at an index. -/
theorem node_tile_first (x g : Vec Ideal S5000x128 .f32) (W : Vec Ideal S128x128 .bf16) (b : Vec Ideal S1x128 .f32)
    (j : S5000x128.Idx) : k1_pay1 (F := Ideal) x g W b j = nodeEntry x g W b j := by
  obtain ⟨p, q, rfl⟩ : ∃ (p : Fin 5000) (q : Fin 128), j = ix2 p q := ⟨j 0, j 1, eq_ix2 j⟩
  unfold k1_pay1 nodeEntry
  simp only [shapeCast_self]
  show max (matmul (F := Ideal) dot_S5000x128_S128x128_S5000x128_1_0_0_1_n_n none
        (truncf .bf16 (addf (x : FVec Ideal S5000x128 .f32) g) bitsLt_bf16_f32) (W : FVec Ideal S128x128 .bf16)
        (constant S5000x128 .f32 0x00000000#32) (ix2 p q)
      + broadcastTo S5000x128 b broadcasts_S1x128_S5000x128 (ix2 p q)) _ = _
  rw [tile_product, broadcastTo_1b_ab_apply]
  rfl

/-- The second layer's node-update tile at an index. -/
theorem node_tile_second (x g : Vec Ideal S5000x128 .f32) (W : Vec Ideal S128x128 .bf16) (b : Vec Ideal S1x128 .f32)
    (j : S5000x128.Idx) : k3_pay1 (F := Ideal) x g W b j = nodeEntry x g W b j := by
  obtain ⟨p, q, rfl⟩ : ∃ (p : Fin 5000) (q : Fin 128), j = ix2 p q := ⟨j 0, j 1, eq_ix2 j⟩
  unfold k3_pay1 nodeEntry
  simp only [shapeCast_self]
  show max (matmul (F := Ideal) dot_S5000x128_S128x128_S5000x128_1_0_0_1_n_n none
        (truncf .bf16 (addf (x : FVec Ideal S5000x128 .f32) g) bitsLt_bf16_f32) (W : FVec Ideal S128x128 .bf16)
        (constant S5000x128 .f32 0x00000000#32) (ix2 p q)
      + broadcastTo S5000x128 b broadcasts_S1x128_S5000x128 (ix2 p q)) _ = _
  rw [tile_product, broadcastTo_1b_ab_apply]
  rfl

end Cert.KernelIdeal.Bridge

end
-- ==== Proof.NodeLaunch.lean ====
/-
  The node-update launches: from the tile to the whole array.

  A launch runs the tile body at 8 grid points; point `t` reads rows `5000 t … 5000 t + 4999` of the node array and of
  the aggregated messages, the whole weight and the whole bias row, and writes back rows `5000 t … 5000 t + 4999` of the
  output. The 8 blocks tile the 40000 rows, so after the launch the output array is, at every node `n` and feature `d`,
      max (Σ_k (x (n, k) + g (n, k)) · W (k, d) + b (0, d), 0),
  a function of the four operand arrays as the launch found them (left as a parameter here).
-/
import proofs.«167210_j37340445671820_1_alg».proof.Proof.Gen.KernelIdeal.Frame
import proofs.«167210_j37340445671820_1_alg».proof.Proof.NodeTile

set_option maxRecDepth 16384

noncomputable section

namespace Cert.KernelIdeal.Bridge

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The whole array of updated nodes: at node `n` and feature `d`, the row `x (n) + g (n)` times column `d` of the
    weight, plus the bias, clamped at zero. -/
def nodeUpd (x g : S40000x128.Idx → EReal) (W : S128x128.Idx → EReal) (b : S1x128.Idx → EReal) : S40000x128.Idx → EReal :=
  fun i => max ((∑ k : Fin 128, (x (ix2 (i 0) k) + g (ix2 (i 0) k)) * W (ix2 k (i 1))) + b (ix2 (0 : Fin 1) (i 1))) (Ideal.ofBits .f32 0x00000000#32)

theorem hz' : (![0, 0] : Fin 2 → Nat) = fun _ => 0 := funext fun a => by fin_cases a <;> rfl

variable (V : (c : Dev nD) → (b : Ref sig .tc) → Buf (Elt Ideal) ((c : Thread nD τ).loc b))

/-! ## Launch 1 -/

/-- The index maps of launch 1, decided over its 8 grid points: the node rows, the aggregated rows and the output
    move together, block `t` at point `t`; the weight and the bias row stay at block 0. -/
theorem node1_maps : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` of launch 1 writes back is block `t` of the whole array of updated nodes computed from the
    launch's four operand arrays as it finds them. -/
theorem node1_written (c : Dev nD) (t : Fin cfg1.N) :
    (dat1 V c).flushed 4 t = ((cfg1.win 4).blk t).view.read (Elt Ideal)
      (nodeUpd (V c main_arg0) (V c main_v16) (V c main_v17) (V c main_v18)) := by
  show (cfg1.win 4).cut (grid1.coords t) ((dat1 V c).after 4 t) = _
  rw [after1_4]
  unfold out1_4
  rw [View.canon_unit_zero hz']
  simp only [View.ld_unit_zero (S := S5000x128) hz', View.ld_unit_zero (S := S128x128) hz', View.ld_unit_zero (S := S1x128) hz']
  obtain ⟨e00, e01, e10, e11, e20, e21, e30, e31, e40, e41⟩ := node1_maps t
  funext j
  refine (node_tile_first _ _ _ _ j).trans ?_
  have hj0 : (j 0).val < 5000 := (j 0).isLt
  have hj1 : (j 1).val < 128 := (j 1).isLt
  have h0 : ∀ k : Fin 128, ((cfg1.win 0).blk t).view.emb (ix2 (j 0) k) = ix2 ((((cfg1.win 4).blk t).view.emb j) 0) k := by
    intro k; funext a; apply Fin.ext
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 128 + 1 * k.val = k.val; omega
  have h1 : ∀ k : Fin 128, ((cfg1.win 1).blk t).view.emb (ix2 (j 0) k) = ix2 ((((cfg1.win 4).blk t).view.emb j) 0) k := by
    intro k; funext a; apply Fin.ext
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 128 + 1 * k.val = k.val; omega
  have h2 : ∀ k : Fin 128, ((cfg1.win 2).blk t).view.emb (ix2 k (j 1)) = ix2 k ((((cfg1.win 4).blk t).view.emb j) 1) := by
    intro k; funext a; apply Fin.ext
    match a with
    | ⟨0, _⟩ => show win1_2.index t (0 : Fin 2) * 128 + 1 * k.val = k.val; omega
    | ⟨1, _⟩ => show win1_2.index t (1 : Fin 2) * 128 + 1 * (j 1).val = win1_4.index t (1 : Fin 2) * 128 + 1 * (j 1).val; omega
  have h3 : ((cfg1.win 3).blk t).view.emb (ix2 (0 : Fin 1) (j 1)) = ix2 (0 : Fin 1) ((((cfg1.win 4).blk t).view.emb j) 1) := by
    funext a; apply Fin.ext
    match a with
    | ⟨0, _⟩ => show win1_3.index t (0 : Fin 2) * 1 + 1 * 0 = 0; omega
    | ⟨1, _⟩ => show win1_3.index t (1 : Fin 2) * 128 + 1 * (j 1).val = win1_4.index t (1 : Fin 2) * 128 + 1 * (j 1).val; omega
  have key : ∀ (X G : S40000x128.Idx → EReal) (Wm : S128x128.Idx → EReal) (Br : S1x128.Idx → EReal),
      nodeEntry (fun y => X (((cfg1.win 0).blk t).view.emb y)) (fun y => G (((cfg1.win 1).blk t).view.emb y))
          (fun y => Wm (((cfg1.win 2).blk t).view.emb y)) (fun y => Br (((cfg1.win 3).blk t).view.emb y)) j
        = nodeUpd X G Wm Br (((cfg1.win 4).blk t).view.emb j) := by
    intro X G Wm Br
    unfold nodeEntry nodeUpd
    dsimp only
    simp only [h0, h1, h2, h3]
    rfl
  exact key (V c main_arg0) (V c main_v16) (V c main_v17) (V c main_v18)

/-- An index of the output array lies in point `t`'s block iff each coordinate lies in the block's range. -/
theorem node1_in_block (t : Fin cfg1.N) (i : S40000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v19).slice (win1_4.rect t)).set ↔ _
  rw [View.set_slice_whole, Rect.mem_set_unit]
  exact Iff.rfl

/-- Every row of the output array is written: row `r` by point `r / 5000`. -/
theorem node1_covered (i : S40000x128.Idx) :
    ∃ t : Fin cfg1.N, (cfg1.win 4).flush t = true ∧ i ∈ ((cfg1.win 4).blk t).view.set := by
  have hi0 : (i 0).val < 40000 := (i 0).isLt
  have hi1 : (i 1).val < 128 := (i 1).isLt
  have hN : cfg1.N = 8 := N_1
  refine ⟨⟨(i 0).val / 5000, by rw [hN]; omega⟩, flush1_4 _, ?_⟩
  rw [node1_in_block]
  obtain ⟨-, -, -, -, -, -, -, -, e40, e41⟩ := node1_maps ⟨(i 0).val / 5000, by rw [hN]; omega⟩
  intro a
  match a with
  | ⟨0, _⟩ =>
    show win1_4.index ⟨(i 0).val / 5000, _⟩ (0 : Fin 2) * 5000 ≤ (i 0).val
      ∧ (i 0).val < win1_4.index ⟨(i 0).val / 5000, _⟩ (0 : Fin 2) * 5000 + 5000
    rw [e40]; show (i 0).val / 5000 * 5000 ≤ (i 0).val ∧ (i 0).val < (i 0).val / 5000 * 5000 + 5000; omega
  | ⟨1, _⟩ =>
    show win1_4.index ⟨(i 0).val / 5000, _⟩ (1 : Fin 2) * 128 ≤ (i 1).val
      ∧ (i 1).val < win1_4.index ⟨(i 0).val / 5000, _⟩ (1 : Fin 2) * 128 + 128
    rw [e41]; omega

/-- THE OUTPUT ARRAY after launch 1: the updated nodes of the launch's operand arrays, whole. -/
theorem node1_array (c : Dev nD) :
    (dat1 V c).arrAt 4 cfg1.N = nodeUpd (V c main_arg0) (V c main_v16) (V c main_v17) (V c main_v18) :=
  (dat1 V c).arrAt_eq_of_cover 4 _ (fun t _ => node1_written V c t) node1_covered

/-! ## Launch 3 -/

/-- The index maps of launch 3, decided over its 8 grid points: the node rows, the aggregated rows and the output
    move together, block `t` at point `t`; the weight and the bias row stay at block 0. -/
theorem node3_maps : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What point `t` of launch 3 writes back is block `t` of the whole array of updated nodes computed from the
    launch's four operand arrays as it finds them. -/
theorem node3_written (c : Dev nD) (t : Fin cfg3.N) :
    (dat3 V c).flushed 4 t = ((cfg3.win 4).blk t).view.read (Elt Ideal)
      (nodeUpd (V c main_v19) (V c main_v31) (V c main_v32) (V c main_v33)) := by
  show (cfg3.win 4).cut (grid3.coords t) ((dat3 V c).after 4 t) = _
  rw [after3_4]
  unfold out3_4
  rw [View.canon_unit_zero hz']
  simp only [View.ld_unit_zero (S := S5000x128) hz', View.ld_unit_zero (S := S128x128) hz', View.ld_unit_zero (S := S1x128) hz']
  obtain ⟨e00, e01, e10, e11, e20, e21, e30, e31, e40, e41⟩ := node3_maps t
  funext j
  refine (node_tile_second _ _ _ _ j).trans ?_
  have hj0 : (j 0).val < 5000 := (j 0).isLt
  have hj1 : (j 1).val < 128 := (j 1).isLt
  have h0 : ∀ k : Fin 128, ((cfg3.win 0).blk t).view.emb (ix2 (j 0) k) = ix2 ((((cfg3.win 4).blk t).view.emb j) 0) k := by
    intro k; funext a; apply Fin.ext
    match a with
    | ⟨0, _⟩ => show win3_0.index t (0 : Fin 2) * 5000 + 1 * (j 0).val = win3_4.index t (0 : Fin 2) * 5000 + 1 * (j 0).val; omega
    | ⟨1, _⟩ => show win3_0.index t (1 : Fin 2) * 128 + 1 * k.val = k.val; omega
  have h1 : ∀ k : Fin 128, ((cfg3.win 1).blk t).view.emb (ix2 (j 0) k) = ix2 ((((cfg3.win 4).blk t).view.emb j) 0) k := by
    intro k; funext a; apply Fin.ext
    match a with
    | ⟨0, _⟩ => show win3_1.index t (0 : Fin 2) * 5000 + 1 * (j 0).val = win3_4.index t (0 : Fin 2) * 5000 + 1 * (j 0).val; omega
    | ⟨1, _⟩ => show win3_1.index t (1 : Fin 2) * 128 + 1 * k.val = k.val; omega
  have h2 : ∀ k : Fin 128, ((cfg3.win 2).blk t).view.emb (ix2 k (j 1)) = ix2 k ((((cfg3.win 4).blk t).view.emb j) 1) := by
    intro k; funext a; apply Fin.ext
    match a with
    | ⟨0, _⟩ => show win3_2.index t (0 : Fin 2) * 128 + 1 * k.val = k.val; omega
    | ⟨1, _⟩ => show win3_2.index t (1 : Fin 2) * 128 + 1 * (j 1).val = win3_4.index t (1 : Fin 2) * 128 + 1 * (j 1).val; omega
  have h3 : ((cfg3.win 3).blk t).view.emb (ix2 (0 : Fin 1) (j 1)) = ix2 (0 : Fin 1) ((((cfg3.win 4).blk t).view.emb j) 1) := by
    funext a; apply Fin.ext
    match a with
    | ⟨0, _⟩ => show win3_3.index t (0 : Fin 2) * 1 + 1 * 0 = 0; omega
    | ⟨1, _⟩ => show win3_3.index t (1 : Fin 2) * 128 + 1 * (j 1).val = win3_4.index t (1 : Fin 2) * 128 + 1 * (j 1).val; omega
  have key : ∀ (X G : S40000x128.Idx → EReal) (Wm : S128x128.Idx → EReal) (Br : S1x128.Idx → EReal),
      nodeEntry (fun y => X (((cfg3.win 0).blk t).view.emb y)) (fun y => G (((cfg3.win 1).blk t).view.emb y))
          (fun y => Wm (((cfg3.win 2).blk t).view.emb y)) (fun y => Br (((cfg3.win 3).blk t).view.emb y)) j
        = nodeUpd X G Wm Br (((cfg3.win 4).blk t).view.emb j) := by
    intro X G Wm Br
    unfold nodeEntry nodeUpd
    dsimp only
    simp only [h0, h1, h2, h3]
    rfl
  exact key (V c main_v19) (V c main_v31) (V c main_v32) (V c main_v33)

/-- An index of the output array lies in point `t`'s block iff each coordinate lies in the block's range. -/
theorem node3_in_block (t : Fin cfg3.N) (i : S40000x128.Idx) :
    i ∈ ((cfg3.win 4).blk t).view.set ↔ ∀ a : Fin 2, win3_4.index t a * S5000x128.size a ≤ (i a).val
      ∧ (i a).val < win3_4.index t a * S5000x128.size a + S5000x128.size a := by
  show i ∈ ((View.whole main_v34).slice (win3_4.rect t)).set ↔ _
  rw [View.set_slice_whole, Rect.mem_set_unit]
  exact Iff.rfl

/-- Every row of the output array is written: row `r` by point `r / 5000`. -/
theorem node3_covered (i : S40000x128.Idx) :
    ∃ t : Fin cfg3.N, (cfg3.win 4).flush t = true ∧ i ∈ ((cfg3.win 4).blk t).view.set := by
  have hi0 : (i 0).val < 40000 := (i 0).isLt
  have hi1 : (i 1).val < 128 := (i 1).isLt
  have hN : cfg3.N = 8 := N_3
  refine ⟨⟨(i 0).val / 5000, by rw [hN]; omega⟩, flush3_4 _, ?_⟩
  rw [node3_in_block]
  obtain ⟨-, -, -, -, -, -, -, -, e40, e41⟩ := node3_maps ⟨(i 0).val / 5000, by rw [hN]; omega⟩
  intro a
  match a with
  | ⟨0, _⟩ =>
    show win3_4.index ⟨(i 0).val / 5000, _⟩ (0 : Fin 2) * 5000 ≤ (i 0).val
      ∧ (i 0).val < win3_4.index ⟨(i 0).val / 5000, _⟩ (0 : Fin 2) * 5000 + 5000
    rw [e40]; show (i 0).val / 5000 * 5000 ≤ (i 0).val ∧ (i 0).val < (i 0).val / 5000 * 5000 + 5000; omega
  | ⟨1, _⟩ =>
    show win3_4.index ⟨(i 0).val / 5000, _⟩ (1 : Fin 2) * 128 ≤ (i 1).val
      ∧ (i 1).val < win3_4.index ⟨(i 0).val / 5000, _⟩ (1 : Fin 2) * 128 + 128
    rw [e41]; omega

/-- THE OUTPUT ARRAY after launch 3: the updated nodes of the launch's operand arrays, whole. -/
theorem node3_array (c : Dev nD) :
    (dat3 V c).arrAt 4 cfg3.N = nodeUpd (V c main_v19) (V c main_v31) (V c main_v32) (V c main_v33) :=
  (dat3 V c).arrAt_eq_of_cover 4 _ (fun t _ => node3_written V c t) node3_covered

end Cert.KernelIdeal.Bridge

end
-- ==== Proof.HostLines.lean ====
/-
  The host stretches between the launches, read one needed buffer at a time.

  Before each launch the program runs a short line of host operations. For any contents `W` of the core's buffers
  before such a line, the contents after it are the line's operations folded over `W`: a buffer an operation writes
  holds the operation's function of its operands' contents, every other buffer holds what it held. This module reads
  off, for each of the four lines, the buffers the next launch (or a later line) reads:

  * line 0: the source-node and target-node rows of the edge list as vectors, the normalised source indices as a
    column, the rows gathered at them, the edge weights as a column, the first bias as a row;
  * line 1: the first layer's messages scatter-added at the target nodes into zeros, the first weight narrowed, the
    second bias of the layer as a row;
  * lines 2 and 3: the same for the second layer (the gather now reads the first layer's output).
-/
import proofs.«167210_j37340445671820_1_alg».proof.Proof.Gen.KernelIdeal.Launch
import Idealize.ShloMosaic.Lib.StableHlo.Run
import Idealize.ShloMosaic.PureOps.Ideal

noncomputable section

namespace Cert.KernelIdeal.Bridge

open Cert.KernelIdeal Cert.KernelIdeal.Gen
open Idealize.ShloMosaic Idealize.ShloMosaic.TcCoe Idealize.ShloMosaic.StableHlo

/-! ## The index vectors and the layout forms, as functions of the arguments -/

/-- Row `r` of the edge list (0: source nodes, 1: target nodes), as a vector over the edges. -/
def edgeRow0 (e : (⟨S2x640000, .i32⟩ : BufTy).Contents (Elt Ideal)) : (⟨S640000, .i32⟩ : BufTy).Contents (Elt Ideal) :=
  shapeCast _ (extractStridedSlice S1x640000 ![0, 0] e slices_S2x640000_S1x640000_0_0) shapeCasts_S1x640000_S640000
def edgeRow1 (e : (⟨S2x640000, .i32⟩ : BufTy).Contents (Elt Ideal)) : (⟨S640000, .i32⟩ : BufTy).Contents (Elt Ideal) :=
  shapeCast _ (extractStridedSlice S1x640000 ![1, 0] e slices_S2x640000_S1x640000_1_0) shapeCasts_S1x640000_S640000

/-- The gather's index column: a negative source index is taken from the end (40000 is added), then the vector is
    viewed as a column. -/
def srcColumn (s : (⟨S640000, .i32⟩ : BufTy).Contents (Elt Ideal)) : (⟨S640000x1, .i32⟩ : BufTy).Contents (Elt Ideal) :=
  broadcastInDim S640000x1 ![0] bcast_S640000_S640000x1_0
    (select (cmpi .slt s (broadcastInDim S640000 ![] bcast_S_S640000 (constantI S_ 32 0#32)))
      (addi s (broadcastInDim S640000 ![] bcast_S_S640000 (constantI S_ 32 40000#32))) s)

/-- The rows of `x` at the source nodes of the edges. -/
def gatherRows (x : (⟨S40000x128, .f32⟩ : BufTy).Contents (Elt Ideal)) (s : (⟨S640000, .i32⟩ : BufTy).Contents (Elt Ideal)) :
    (⟨S640000x128, .f32⟩ : BufTy).Contents (Elt Ideal) :=
  Host.gather gather_S40000x128_S640000x1_S640000x128_1_0_n_n_0_1_1128 x (srcColumn s)

/-- The messages `u` summed at the target nodes `d` of their edges, from zeros. -/
def sumAtTargets (d : (⟨S640000, .i32⟩ : BufTy).Contents (Elt Ideal)) (u : (⟨S640000x128, .f32⟩ : BufTy).Contents (Elt Ideal)) :
    (⟨S40000x128, .f32⟩ : BufTy).Contents (Elt Ideal) :=
  Host.scatterAdd (F := Ideal) scatter_S40000x128_S640000x1_S640000x128_1_0_0_1
    (broadcastInDim S40000x128 ![] bcast_S_S40000x128 (constant (F := Ideal) S_ .f32 0x00000000#32))
    (broadcastInDim S640000x1 ![0] bcast_S640000_S640000x1_0 d) u

/-- The edge weights as a column. -/
def weightColumn (a : (⟨S640000, .f32⟩ : BufTy).Contents (Elt Ideal)) : (⟨S640000x1, .f32⟩ : BufTy).Contents (Elt Ideal) :=
  broadcastInDim S640000x1 ![0] bcast_S640000_S640000x1_0 a

/-- A bias vector as a row. -/
def biasRow (b : (⟨S128, .f32⟩ : BufTy).Contents (Elt Ideal)) : (⟨S1x128, .f32⟩ : BufTy).Contents (Elt Ideal) :=
  shapeCast _ b shapeCasts_S128_S1x128

/-- A weight matrix narrowed for the product (the identity at the exact reals). -/
def narrowed (w : (⟨S128x128, .f32⟩ : BufTy).Contents (Elt Ideal)) : (⟨S128x128, .bf16⟩ : BufTy).Contents (Elt Ideal) :=
  truncf (F := Ideal) .bf16 w bitsLt_bf16_f32

variable (W : Valuation τ sig (Elt Ideal))

/-! ## Line 0 -/

theorem line0_src : after hostOps0 W (Proc.devRef .tc main_v1) = edgeRow0 (W (Proc.devRef .tc main_arg1)) := by
  after_results <;> rfl
theorem line0_dst : after hostOps0 W (Proc.devRef .tc main_v3) = edgeRow1 (W (Proc.devRef .tc main_arg1)) := by
  after_results <;> rfl
theorem line0_weights : after hostOps0 W (Proc.devRef .tc main_v4) = weightColumn (W (Proc.devRef .tc main_arg2)) := by
  after_results <;> rfl
theorem line0_gathered : after hostOps0 W (Proc.devRef .tc main_v11)
    = gatherRows (W (Proc.devRef .tc main_arg0)) (edgeRow0 (W (Proc.devRef .tc main_arg1))) := by
  after_results <;> rfl
theorem line0_bias : after hostOps0 W (Proc.devRef .tc main_v12) = biasRow (W (Proc.devRef .tc main_arg4)) := by
  after_results <;> rfl
theorem line0_keeps (b : Ref sig .tc) (hb : b ∉ [main_v0, main_v1, main_v2, main_v3, main_v4, main_c, main_v5, main_v6, main_c_0, main_v7, main_v8, main_v9, main_v10, main_v11, main_v12]) :
    after hostOps0 W (Proc.devRef .tc b) = W (Proc.devRef .tc b) :=
  after_of_forall_not_mem (b := (Proc.devRef .tc b)) _ _ (List.forall_iff_forall_mem.mp (by
    simp only [hostOps0, List.Forall, nullary_writes, unary_writes, binary_writes, ternary_writes, reshape_writes, Finset.mem_singleton]
    simp only [List.mem_cons, List.not_mem_nil, or_false, not_or] at hb
    obtain ⟨h0, h1, h2, h3, h4, h5, h6, h7, h8, h9, h10, h11, h12, h13, h14⟩ := hb
    exact ⟨devRef_ne_of_ne h0, devRef_ne_of_ne h1, devRef_ne_of_ne h2, devRef_ne_of_ne h3, devRef_ne_of_ne h4, devRef_ne_of_ne h5,
      devRef_ne_of_ne h6, devRef_ne_of_ne h7, devRef_ne_of_ne h8, devRef_ne_of_ne h9, devRef_ne_of_ne h10, devRef_ne_of_ne h11,
      devRef_ne_of_ne h12, devRef_ne_of_ne h13, devRef_ne_of_ne h14⟩))

/-! ## Line 1 -/

theorem line1_summed : after hostOps1 W (Proc.devRef .tc main_v16)
    = sumAtTargets (W (Proc.devRef .tc main_v3)) (W (Proc.devRef .tc main_v13)) := by
  after_results <;> rfl
theorem line1_weight : after hostOps1 W (Proc.devRef .tc main_v17) = narrowed (W (Proc.devRef .tc main_arg5)) := by
  after_results <;> rfl
theorem line1_bias : after hostOps1 W (Proc.devRef .tc main_v18) = biasRow (W (Proc.devRef .tc main_arg6)) := by
  after_results <;> rfl
theorem line1_keeps (b : Ref sig .tc) (hb : b ∉ [main_cst, main_v14, main_v15, main_v16, main_v17, main_v18]) :
    after hostOps1 W (Proc.devRef .tc b) = W (Proc.devRef .tc b) :=
  after_of_forall_not_mem (b := (Proc.devRef .tc b)) _ _ (List.forall_iff_forall_mem.mp (by
    simp only [hostOps1, List.Forall, nullary_writes, unary_writes, binary_writes, ternary_writes, reshape_writes, Finset.mem_singleton]
    simp only [List.mem_cons, List.not_mem_nil, or_false, not_or] at hb
    obtain ⟨h0, h1, h2, h3, h4, h5⟩ := hb
    exact ⟨devRef_ne_of_ne h0, devRef_ne_of_ne h1, devRef_ne_of_ne h2, devRef_ne_of_ne h3, devRef_ne_of_ne h4, devRef_ne_of_ne h5⟩))

/-! ## Line 2 -/

theorem line2_gathered : after hostOps2 W (Proc.devRef .tc main_v26)
    = gatherRows (W (Proc.devRef .tc main_v19)) (W (Proc.devRef .tc main_v1)) := by
  after_results <;> rfl
theorem line2_bias : after hostOps2 W (Proc.devRef .tc main_v27) = biasRow (W (Proc.devRef .tc main_arg8)) := by
  after_results <;> rfl
theorem line2_keeps (b : Ref sig .tc) (hb : b ∉ [main_c_1, main_v20, main_v21, main_c_2, main_v22, main_v23, main_v24, main_v25, main_v26, main_v27]) :
    after hostOps2 W (Proc.devRef .tc b) = W (Proc.devRef .tc b) :=
  after_of_forall_not_mem (b := (Proc.devRef .tc b)) _ _ (List.forall_iff_forall_mem.mp (by
    simp only [hostOps2, List.Forall, nullary_writes, unary_writes, binary_writes, ternary_writes, reshape_writes, Finset.mem_singleton]
    simp only [List.mem_cons, List.not_mem_nil, or_false, not_or] at hb
    obtain ⟨h0, h1, h2, h3, h4, h5, h6, h7, h8, h9⟩ := hb
    exact ⟨devRef_ne_of_ne h0, devRef_ne_of_ne h1, devRef_ne_of_ne h2, devRef_ne_of_ne h3, devRef_ne_of_ne h4, devRef_ne_of_ne h5, devRef_ne_of_ne h6, devRef_ne_of_ne h7, devRef_ne_of_ne h8, devRef_ne_of_ne h9⟩))

/-! ## Line 3 -/

theorem line3_summed : after hostOps3 W (Proc.devRef .tc main_v31)
    = sumAtTargets (W (Proc.devRef .tc main_v3)) (W (Proc.devRef .tc main_v28)) := by
  after_results <;> rfl
theorem line3_weight : after hostOps3 W (Proc.devRef .tc main_v32) = narrowed (W (Proc.devRef .tc main_arg9)) := by
  after_results <;> rfl
theorem line3_bias : after hostOps3 W (Proc.devRef .tc main_v33) = biasRow (W (Proc.devRef .tc main_arg10)) := by
  after_results <;> rfl
theorem line3_keeps (b : Ref sig .tc) (hb : b ∉ [main_cst_3, main_v29, main_v30, main_v31, main_v32, main_v33]) :
    after hostOps3 W (Proc.devRef .tc b) = W (Proc.devRef .tc b) :=
  after_of_forall_not_mem (b := (Proc.devRef .tc b)) _ _ (List.forall_iff_forall_mem.mp (by
    simp only [hostOps3, List.Forall, nullary_writes, unary_writes, binary_writes, ternary_writes, reshape_writes, Finset.mem_singleton]
    simp only [List.mem_cons, List.not_mem_nil, or_false, not_or] at hb
    obtain ⟨h0, h1, h2, h3, h4, h5⟩ := hb
    exact ⟨devRef_ne_of_ne h0, devRef_ne_of_ne h1, devRef_ne_of_ne h2, devRef_ne_of_ne h3, devRef_ne_of_ne h4, devRef_ne_of_ne h5⟩))

end Cert.KernelIdeal.Bridge

end
-- ==== Proof.Boundaries.lean ====
/-
  The contents of every launch's operands, traced from the program's arguments.

  Write `x, e, a` for the node features, the edge list and the edge weights, and `(w₁, b₁, W₁, c₁)`, `(w₂, b₂, W₂, c₂)`
  for the two layers' parameters. One layer maps node features `h` to
      update h (sum over the edges into each target node of message (h at the edge's source)),
  where the message and the update are the whole-array functions of the two kernels. Following the buffer contents
  through the boundaries of the program — a host line rewrites the buffers it writes and keeps the others, a launch
  replaces its output array and keeps everything else — the result buffer ends at `layer (layer x)`.
-/
import proofs.«167210_j37340445671820_1_alg».proof.Proof.Gen.KernelIdeal.Frame
import proofs.«167210_j37340445671820_1_alg».proof.Proof.EdgeLaunch
import proofs.«167210_j37340445671820_1_alg».proof.Proof.NodeLaunch
import proofs.«167210_j37340445671820_1_alg».proof.Proof.HostLines

set_option maxRecDepth 16384

noncomputable section

namespace Cert.KernelIdeal.Bridge

open Cert.KernelIdeal Cert.KernelIdeal.Gen
open Idealize.ShloMosaic Idealize.ShloMosaic.TcCoe Idealize.ShloMosaic.StableHlo Idealize.SL.Sem

/-- One layer of the network on node features `h`: gather the source rows, form the edge messages, sum them at the
    target nodes, update the nodes. -/
def layer (h : (⟨S40000x128, .f32⟩ : BufTy).Contents (Elt Ideal)) (e : (⟨S2x640000, .i32⟩ : BufTy).Contents (Elt Ideal))
    (a : (⟨S640000, .f32⟩ : BufTy).Contents (Elt Ideal)) (w : (⟨S1x128, .f32⟩ : BufTy).Contents (Elt Ideal))
    (b : (⟨S128, .f32⟩ : BufTy).Contents (Elt Ideal)) (Wn : (⟨S128x128, .f32⟩ : BufTy).Contents (Elt Ideal))
    (bn : (⟨S128, .f32⟩ : BufTy).Contents (Elt Ideal)) : (⟨S40000x128, .f32⟩ : BufTy).Contents (Elt Ideal) :=
  nodeUpd h (sumAtTargets (edgeRow1 e) (edgeMsg (gatherRows h (edgeRow0 e)) (weightColumn a) w (biasRow b))) (narrowed Wn) (biasRow bn)

variable (m : (ℓ : Loc nD τ sig) → Buf (Elt Ideal) ℓ) (ρ : Dev nD → PrngReg) (c : Dev nD)

/-! ## What survives from the first host line to each later boundary -/

theorem at1_of_arg (b : Ref sig .tc) (h0 : b ∉ [main_v0, main_v1, main_v2, main_v3, main_v4, main_c, main_v5, main_v6, main_c_0, main_v7, main_v8, main_v9, main_v10, main_v11, main_v12]) :
    W1 m ρ c (Proc.devRef .tc b) = m ((c.tc : Thread nD τ).loc b) := line0_keeps (W0 m ρ c) b h0
theorem at2_eq_at1 (b : Ref sig .tc) (n0 : ∀ w, Pipeline.arrRef spec0 w ≠ b) :
    W2 m ρ c (Proc.devRef .tc b) = W1 m ρ c (Proc.devRef .tc b) := W2_of_ne m ρ c b n0
theorem at3_eq_at1 (b : Ref sig .tc) (n0 : ∀ w, Pipeline.arrRef spec0 w ≠ b)
    (h1 : b ∉ [main_cst, main_v14, main_v15, main_v16, main_v17, main_v18]) :
    W3 m ρ c (Proc.devRef .tc b) = W1 m ρ c (Proc.devRef .tc b) :=
  (line1_keeps (W2 m ρ c) b h1).trans (at2_eq_at1 m ρ c b n0)
theorem at4_eq_at1 (b : Ref sig .tc) (n0 : ∀ w, Pipeline.arrRef spec0 w ≠ b)
    (h1 : b ∉ [main_cst, main_v14, main_v15, main_v16, main_v17, main_v18]) (n1 : ∀ w, Pipeline.arrRef spec1 w ≠ b) :
    W4 m ρ c (Proc.devRef .tc b) = W1 m ρ c (Proc.devRef .tc b) :=
  (W4_of_ne m ρ c b n1).trans (at3_eq_at1 m ρ c b n0 h1)
theorem at5_eq_at1 (b : Ref sig .tc) (n0 : ∀ w, Pipeline.arrRef spec0 w ≠ b)
    (h1 : b ∉ [main_cst, main_v14, main_v15, main_v16, main_v17, main_v18]) (n1 : ∀ w, Pipeline.arrRef spec1 w ≠ b)
    (h2 : b ∉ [main_c_1, main_v20, main_v21, main_c_2, main_v22, main_v23, main_v24, main_v25, main_v26, main_v27]) :
    W5 m ρ c (Proc.devRef .tc b) = W1 m ρ c (Proc.devRef .tc b) :=
  (line2_keeps (W4 m ρ c) b h2).trans (at4_eq_at1 m ρ c b n0 h1 n1)
theorem at6_eq_at1 (b : Ref sig .tc) (n0 : ∀ w, Pipeline.arrRef spec0 w ≠ b)
    (h1 : b ∉ [main_cst, main_v14, main_v15, main_v16, main_v17, main_v18]) (n1 : ∀ w, Pipeline.arrRef spec1 w ≠ b)
    (h2 : b ∉ [main_c_1, main_v20, main_v21, main_c_2, main_v22, main_v23, main_v24, main_v25, main_v26, main_v27])
    (n2 : ∀ w, Pipeline.arrRef spec2 w ≠ b) :
    W6 m ρ c (Proc.devRef .tc b) = W1 m ρ c (Proc.devRef .tc b) :=
  (W6_of_ne m ρ c b n2).trans (at5_eq_at1 m ρ c b n0 h1 n1 h2)

/-- After the first host line: the two rows of the edge list and the weight column. -/
theorem at1_src : W1 m ρ c (Proc.devRef .tc main_v1) = edgeRow0 (m ((c.tc : Thread nD τ).loc main_arg1)) := line0_src (W0 m ρ c)
theorem at1_dst : W1 m ρ c (Proc.devRef .tc main_v3) = edgeRow1 (m ((c.tc : Thread nD τ).loc main_arg1)) := line0_dst (W0 m ρ c)
theorem at1_weights : W1 m ρ c (Proc.devRef .tc main_v4) = weightColumn (m ((c.tc : Thread nD τ).loc main_arg2)) := line0_weights (W0 m ρ c)

/-- The weight column is an input of the first launch, which leaves its input arrays as it found them. -/
theorem weights_after_first_launch : W2 m ρ c (Proc.devRef .tc main_v4) = weightColumn (m ((c.tc : Thread nD τ).loc main_arg2)) :=
  ((W2_arr m ρ c 1).trans (((dat0 (V1 m ρ) c).arrAt_in 1 rfl _).trans (A_eq0 (V1 m ρ) c 1))).trans (at1_weights m ρ c)

/-! ## The first layer -/

/-- The first layer's messages, as the first launch leaves them. -/
theorem messages1 : W2 m ρ c (Proc.devRef .tc main_v13)
    = edgeMsg (gatherRows (m ((c.tc : Thread nD τ).loc main_arg0)) (edgeRow0 (m ((c.tc : Thread nD τ).loc main_arg1))))
        (weightColumn (m ((c.tc : Thread nD τ).loc main_arg2))) (m ((c.tc : Thread nD τ).loc main_arg3))
        (biasRow (m ((c.tc : Thread nD τ).loc main_arg4))) := by
  refine (W2_arr m ρ c 4).trans ((edge0_array (V1 m ρ) c).trans ?_)
  have g : V1 m ρ c main_v11 = gatherRows (m ((c.tc : Thread nD τ).loc main_arg0)) (edgeRow0 (m ((c.tc : Thread nD τ).loc main_arg1))) :=
    line0_gathered (W0 m ρ c)
  have a : V1 m ρ c main_v4 = weightColumn (m ((c.tc : Thread nD τ).loc main_arg2)) := at1_weights m ρ c
  have w : V1 m ρ c main_arg3 = m ((c.tc : Thread nD τ).loc main_arg3) := at1_of_arg m ρ c main_arg3 (by decide)
  have b : V1 m ρ c main_v12 = biasRow (m ((c.tc : Thread nD τ).loc main_arg4)) := line0_bias (W0 m ρ c)
  rw [g, a, w, b]

/-- The first layer's output, as the second launch leaves it. -/
theorem output1 : W4 m ρ c (Proc.devRef .tc main_v19)
    = layer (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) := by
  refine (W4_arr m ρ c 4).trans ((node1_array (V3 m ρ) c).trans ?_)
  have x : V3 m ρ c main_arg0 = m ((c.tc : Thread nD τ).loc main_arg0) :=
    (at3_eq_at1 m ρ c main_arg0 (by decide) (by decide)).trans (at1_of_arg m ρ c main_arg0 (by decide))
  have g : V3 m ρ c main_v16 = sumAtTargets (edgeRow1 (m ((c.tc : Thread nD τ).loc main_arg1)))
      (edgeMsg (gatherRows (m ((c.tc : Thread nD τ).loc main_arg0)) (edgeRow0 (m ((c.tc : Thread nD τ).loc main_arg1))))
        (weightColumn (m ((c.tc : Thread nD τ).loc main_arg2))) (m ((c.tc : Thread nD τ).loc main_arg3))
        (biasRow (m ((c.tc : Thread nD τ).loc main_arg4)))) := by
    refine (line1_summed (W2 m ρ c)).trans ?_
    rw [messages1 m ρ c, at2_eq_at1 m ρ c main_v3 (by decide), at1_dst m ρ c]
  have wn : V3 m ρ c main_v17 = narrowed (m ((c.tc : Thread nD τ).loc main_arg5)) := by
    refine (line1_weight (W2 m ρ c)).trans ?_
    rw [at2_eq_at1 m ρ c main_arg5 (by decide), at1_of_arg m ρ c main_arg5 (by decide)]
  have bn : V3 m ρ c main_v18 = biasRow (m ((c.tc : Thread nD τ).loc main_arg6)) := by
    refine (line1_bias (W2 m ρ c)).trans ?_
    rw [at2_eq_at1 m ρ c main_arg6 (by decide), at1_of_arg m ρ c main_arg6 (by decide)]
  rw [x, g, wn, bn]
  rfl

/-! ## The second layer -/

/-- The second layer's messages, as the third launch leaves them: the messages of the first layer's output. -/
theorem messages2 : W6 m ρ c (Proc.devRef .tc main_v28)
    = edgeMsg (gatherRows (W4 m ρ c (Proc.devRef .tc main_v19)) (edgeRow0 (m ((c.tc : Thread nD τ).loc main_arg1))))
        (weightColumn (m ((c.tc : Thread nD τ).loc main_arg2))) (m ((c.tc : Thread nD τ).loc main_arg7))
        (biasRow (m ((c.tc : Thread nD τ).loc main_arg8))) := by
  refine (W6_arr m ρ c 4).trans ((edge2_array (V5 m ρ) c).trans ?_)
  have g : V5 m ρ c main_v26 = gatherRows (W4 m ρ c (Proc.devRef .tc main_v19)) (edgeRow0 (m ((c.tc : Thread nD τ).loc main_arg1))) := by
    refine (line2_gathered (W4 m ρ c)).trans ?_
    rw [at4_eq_at1 m ρ c main_v1 (by decide) (by decide) (by decide), at1_src m ρ c]
  have a : V5 m ρ c main_v4 = weightColumn (m ((c.tc : Thread nD τ).loc main_arg2)) :=
    (line2_keeps (W4 m ρ c) main_v4 (by decide)).trans ((W4_of_ne m ρ c main_v4 (by decide)).trans
      ((line1_keeps (W2 m ρ c) main_v4 (by decide)).trans (weights_after_first_launch m ρ c)))
  have w : V5 m ρ c main_arg7 = m ((c.tc : Thread nD τ).loc main_arg7) :=
    (at5_eq_at1 m ρ c main_arg7 (by decide) (by decide) (by decide) (by decide)).trans (at1_of_arg m ρ c main_arg7 (by decide))
  have b : V5 m ρ c main_v27 = biasRow (m ((c.tc : Thread nD τ).loc main_arg8)) := by
    refine (line2_bias (W4 m ρ c)).trans ?_
    rw [at4_eq_at1 m ρ c main_arg8 (by decide) (by decide) (by decide), at1_of_arg m ρ c main_arg8 (by decide)]
  rw [g, a, w, b]

/-- THE RESULT: the result buffer at the program's end holds two layers applied to the node features. -/
theorem result_value : W8 m ρ c (Proc.devRef .tc main_v34)
    = layer (layer (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)))
        (m ((c.tc : Thread nD τ).loc main_arg1)) (m ((c.tc : Thread nD τ).loc main_arg2))
        (m ((c.tc : Thread nD τ).loc main_arg7)) (m ((c.tc : Thread nD τ).loc main_arg8)) (m ((c.tc : Thread nD τ).loc main_arg9))
        (m ((c.tc : Thread nD τ).loc main_arg10)) := by
  refine (W8_arr m ρ c 4).trans ((node3_array (V7 m ρ) c).trans ?_)
  have x : V7 m ρ c main_v19 = W4 m ρ c (Proc.devRef .tc main_v19) :=
    (line3_keeps (W6 m ρ c) main_v19 (by decide)).trans ((W6_of_ne m ρ c main_v19 (by decide)).trans
      (line2_keeps (W4 m ρ c) main_v19 (by decide)))
  have g : V7 m ρ c main_v31 = sumAtTargets (edgeRow1 (m ((c.tc : Thread nD τ).loc main_arg1)))
      (edgeMsg (gatherRows (W4 m ρ c (Proc.devRef .tc main_v19)) (edgeRow0 (m ((c.tc : Thread nD τ).loc main_arg1))))
        (weightColumn (m ((c.tc : Thread nD τ).loc main_arg2))) (m ((c.tc : Thread nD τ).loc main_arg7))
        (biasRow (m ((c.tc : Thread nD τ).loc main_arg8)))) := by
    refine (line3_summed (W6 m ρ c)).trans ?_
    rw [messages2 m ρ c, at6_eq_at1 m ρ c main_v3 (by decide) (by decide) (by decide) (by decide) (by decide), at1_dst m ρ c]
  have wn : V7 m ρ c main_v32 = narrowed (m ((c.tc : Thread nD τ).loc main_arg9)) := by
    refine (line3_weight (W6 m ρ c)).trans ?_
    rw [at6_eq_at1 m ρ c main_arg9 (by decide) (by decide) (by decide) (by decide) (by decide), at1_of_arg m ρ c main_arg9 (by decide)]
  have bn : V7 m ρ c main_v33 = biasRow (m ((c.tc : Thread nD τ).loc main_arg10)) := by
    refine (line3_bias (W6 m ρ c)).trans ?_
    rw [at6_eq_at1 m ρ c main_arg10 (by decide) (by decide) (by decide) (by decide) (by decide), at1_of_arg m ρ c main_arg10 (by decide)]
  rw [x, g, wn, bn, output1 m ρ c]
  rfl

end Cert.KernelIdeal.Bridge

end
-- ==== Proof.LayersAgree.lean ====
/-
  The reference's layer, and why it is the kernel's.

  The reference computes a layer on node features `h` with the same gather and the same scatter-add as the kernel
  program, and between them two dense stages that it spells differently:

  * the edge embedding is the product of the weight column `[E, 1]` with the row `[1, D]`, a contraction over an axis of
    length one, plus the bias broadcast; the kernel multiplies the column's entry by the row's entry directly. A sum
    over one term is that term, so the two message arrays agree entry by entry;
  * the node update is the whole product of `h + aggregated` with the weight plus the bias broadcast; the kernel forms
    it tile by tile from narrowed operands into a zero accumulator. At the exact reals narrowing is the identity and
    both products are the same sum over the 128 contracted coordinates, so the two updated arrays agree entry by
    entry.

  Neither identity moves a factor across a sum, so neither needs the entries to be finite.
-/
import proofs.«167210_j37340445671820_1_alg».proof.Proof.Gen.ReferenceIdeal.Read
import proofs.«167210_j37340445671820_1_alg».proof.Proof.Boundaries
import proofs.«167210_j37340445671820_1_alg».proof.Proof.LibPlainDot
import Idealize.ShloMosaic.Lib.ValueLayout

set_option maxRecDepth 16384

noncomputable section

namespace Cert.ReferenceIdeal.RefValue

open Cert.ReferenceIdeal Cert.ReferenceIdeal.Gen
open Idealize.ShloMosaic Idealize.ShloMosaic.ValueIdx

/-- One layer of the reference on node features `h`. -/
def refLayer (h : FVec Ideal S40000x128 .f32) (e : (⟨S2x640000, .i32⟩ : BufTy).Contents (Elt Ideal))
    (a : FVec Ideal S640000 .f32) (w : FVec Ideal S1x128 .f32)
    (b : FVec Ideal S128 .f32) (Wn : FVec Ideal S128x128 .f32)
    (bn : FVec Ideal S128 .f32) : FVec Ideal S40000x128 .f32 :=
  maximumf (F := Ideal) (addf (F := Ideal) (Host.dotGeneral (F := Ideal) dot_S40000x128_S128x128_S40000x128_1_0_0_1_n_n none
      (addf (F := Ideal) h (Host.scatterAdd (F := Ideal) scatter_S40000x128_S640000x1_S640000x128_1_0_0_1 (Read.val_main_v18 (F := Ideal)) (Read.val_main_v19 (F := Ideal) e)
        (maximumf (F := Ideal) (addf (F := Ideal) (Host.gather gather_S40000x128_S640000x1_S640000x128_1_0_n_n_0_1_1128 h (Read.val_main_v14 (F := Ideal) e))
          (Read.val_main_v8 (F := Ideal) a w b)) (Read.val_main_call0_v0 (F := Ideal))))) Wn)
    (Read.val_main_v24 (F := Ideal) bn)) (Read.val_main_call1_v0 (F := Ideal))

/-- The reference's result is two of its layers applied to the node features. -/
theorem result_is_two_layers (m : (ℓ : Loc nD τ sig) → Buf (Elt Ideal) ℓ) (c : Dev nD) :
    Cert.ReferenceIdeal.Value.res_main_v48 m c
      = refLayer (refLayer (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)))
          (m ((c.tc : Thread nD τ).loc main_arg1)) (m ((c.tc : Thread nD τ).loc main_arg2))
          (m ((c.tc : Thread nD τ).loc main_arg7)) (m ((c.tc : Thread nD τ).loc main_arg8)) (m ((c.tc : Thread nD τ).loc main_arg9))
          (m ((c.tc : Thread nD τ).loc main_arg10)) := by
  unfold Cert.ReferenceIdeal.Value.res_main_v48; rfl

open Cert.KernelIdeal.Bridge in
/-- THE MESSAGES AGREE: the kernel's message array is the reference's `max (x_src + (a · w + b), 0)`. -/
theorem messages_agree (X : FVec Ideal S640000x128 .f32) (a : FVec Ideal S640000 .f32)
    (w : FVec Ideal S1x128 .f32) (b : FVec Ideal S128 .f32) :
    edgeMsg X (weightColumn a) w (biasRow b)
      = maximumf (F := Ideal) (addf (F := Ideal) X (Read.val_main_v8 (F := Ideal) a w b)) (Read.val_main_call0_v0 (F := Ideal)) := by
  funext i
  obtain ⟨p, q, rfl⟩ : ∃ (p : Fin 640000) (q : Fin 128), i = ix2 p q := ⟨i 0, i 1, eq_ix2 i⟩
  show max (X (ix2 p q) + (Read.val_main_v4 (F := Ideal) a (ix2 p (0 : Fin 1)) * w (ix2 (0 : Fin 1) q)
        + shapeCast ⟨2, ![1, 128]⟩ b _ (ix2 (0 : Fin 1) q))) (Ideal.ofBits .f32 0x00000000#32)
    = max (X (ix2 p q) + (Read.val_main_v5 (F := Ideal) a w (ix2 p q) + Read.val_main_v7 (F := Ideal) b (ix2 p q)))
        (Read.val_main_call0_v0 (F := Ideal) (ix2 p q))
  rw [Read.val_main_v5_apply, Fin.sum_univ_one, Read.val_main_v7_apply, Read.val_main_v6_apply, Read.val_main_call0_v0_apply,
    Read.val_main_v4_apply, Read.val_main_v4_apply, shapeCast_a_1a_apply]
  have e1 : Read.idx_main_v4 (Read.lidx_main_v5 (ix2 p q) (0 : Fin 1)) = Read.idx_main_v4 (ix2 p (0 : Fin 1)) :=
    funext fun d => Fin.ext (by match d with | ⟨0, _⟩ => rfl)
  have e2 : Read.ridx_main_v5 (ix2 p q) (0 : Fin 1) = ix2 (0 : Fin 1) q :=
    funext fun d => Fin.ext (by match d with | ⟨0, _⟩ => rfl | ⟨1, _⟩ => rfl)
  have e3 : Read.idx_main_v6 (Read.idx_main_v7 (ix2 p q)) = ix1 q :=
    funext fun d => Fin.ext (by match d with | ⟨0, _⟩ => rfl)
  rw [e1, e2, e3]
  rfl

open Cert.KernelIdeal.Bridge in
/-- THE UPDATES AGREE: the kernel's updated-node array is the reference's `max ((x + g) · W + b, 0)`. -/
theorem updates_agree (X G : FVec Ideal S40000x128 .f32) (Wn : FVec Ideal S128x128 .f32)
    (bn : FVec Ideal S128 .f32) :
    nodeUpd X G (narrowed Wn) (biasRow bn)
      = maximumf (F := Ideal) (addf (F := Ideal) (Host.dotGeneral (F := Ideal) dot_S40000x128_S128x128_S40000x128_1_0_0_1_n_n none (addf (F := Ideal) X G) Wn)
          (Read.val_main_v24 (F := Ideal) bn)) (Read.val_main_call1_v0 (F := Ideal)) := by
  funext i
  obtain ⟨p, q, rfl⟩ : ∃ (p : Fin 40000) (q : Fin 128), i = ix2 p q := ⟨i 0, i 1, eq_ix2 i⟩
  show max ((∑ k : Fin 128, (X (ix2 p k) + G (ix2 p k)) * Wn (ix2 k q))
        + shapeCast ⟨2, ![1, 128]⟩ bn _ (ix2 (0 : Fin 1) q)) (Ideal.ofBits .f32 0x00000000#32)
    = max (FloatOps.dotGeneral (F := Ideal) dot_S40000x128_S128x128_S40000x128_1_0_0_1_n_n none _ (addf (F := Ideal) X G) Wn (ix2 p q)
        + Read.val_main_v24 (F := Ideal) bn (ix2 p q)) (Read.val_main_call1_v0 (F := Ideal) (ix2 p q))
  rw [PlainDot.dotGeneral_plain dot_S40000x128_S128x128_S40000x128_1_0_0_1_n_n rfl rfl rfl rfl rfl rfl,
    Read.val_main_v24_apply, Read.val_main_v23_apply, Read.val_main_call1_v0_apply, shapeCast_a_1a_apply]
  have e3 : Read.idx_main_v23 (Read.idx_main_v24 (ix2 p q)) = ix1 q :=
    funext fun d => Fin.ext (by match d with | ⟨0, _⟩ => rfl)
  rw [e3]
  rfl

/-- THE LAYERS AGREE: on any node features and parameters the kernel program's layer is the reference's. -/
theorem layers_agree (h : FVec Ideal S40000x128 .f32) (e : (⟨S2x640000, .i32⟩ : BufTy).Contents (Elt Ideal))
    (a : FVec Ideal S640000 .f32) (w : FVec Ideal S1x128 .f32)
    (b : FVec Ideal S128 .f32) (Wn : FVec Ideal S128x128 .f32)
    (bn : FVec Ideal S128 .f32) :
    Cert.KernelIdeal.Bridge.layer h e a w b Wn bn = refLayer h e a w b Wn bn := by
  unfold Cert.KernelIdeal.Bridge.layer refLayer
  rw [updates_agree, messages_agree]
  rfl

end Cert.ReferenceIdeal.RefValue

end
-- ==== Proof.lean ====
/-
  The certificate of a two-layer graph network written as four kernel launches against its plain reference.

  Both programs compute, per layer, from node features `h`:
    gather the rows of `h` at the edges' source nodes; add to each the edge's embedding `a · w + b` and clamp at zero;
    sum the resulting messages at the edges' target nodes; add `h`; multiply by the layer's weight, add its bias, clamp
    at zero.
  The kernel program runs the message stage and the update stage as tiled launches (80 tiles of 8000 edges; 8 tiles of
  5000 nodes) with the gather and the scatter-add on the host between them; the reference runs every stage on the host.

  The frames of the two kernel programs are the generated ones; the reference's frame is its generated run with the
  result forgotten; the idealization rewrote nothing, so it preserves trivially. For the value claim the kernel
  program's run is restated with the result buffer named (`run_result_at_end`), the result is traced to two layers of
  whole-array functions (`result_value`), each layer is shown equal to the reference's (`layers_agree`), and the
  reference's run ends at two of its layers (`result_is_two_layers`).
-/
import proofs.«167210_j37340445671820_1_alg».proof.Defs
import proofs.«167210_j37340445671820_1_alg».proof.Proof.Gen.Kernel
import proofs.«167210_j37340445671820_1_alg».proof.Proof.Gen.Kernel.Skeleton
import proofs.«167210_j37340445671820_1_alg».proof.Proof.Gen.Kernel.Launch
import proofs.«167210_j37340445671820_1_alg».proof.Proof.Gen.Kernel.Points
import proofs.«167210_j37340445671820_1_alg».proof.Proof.Gen.Kernel.Frame
import proofs.«167210_j37340445671820_1_alg».proof.Proof.Gen.KernelIdeal
import proofs.«167210_j37340445671820_1_alg».proof.Proof.Gen.KernelIdeal.Skeleton
import proofs.«167210_j37340445671820_1_alg».proof.Proof.Gen.KernelIdeal.Launch
import proofs.«167210_j37340445671820_1_alg».proof.Proof.Gen.KernelIdeal.Points
import proofs.«167210_j37340445671820_1_alg».proof.Proof.Gen.KernelIdeal.Frame
import proofs.«167210_j37340445671820_1_alg».proof.Proof.Gen.ReferenceIdeal
import proofs.«167210_j37340445671820_1_alg».proof.Proof.Gen.ReferenceIdeal.Read
import proofs.«167210_j37340445671820_1_alg».proof.Proof.Gen.Pre_finite_inputs
import proofs.«167210_j37340445671820_1_alg».proof.Proof.RunAtEnd
import proofs.«167210_j37340445671820_1_alg».proof.Proof.Boundaries
import proofs.«167210_j37340445671820_1_alg».proof.Proof.LayersAgree
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Both idealized programs end with the result array at two layers applied to the node features: the kernel
    program's by tracing its buffers through the launches, the reference's by reading its run, and a layer of the one
    is a layer of the other. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.KernelIdeal.Gen.W8 m ρ c (Proc.devRef .tc Cert.KernelIdeal.main_v34),
    Cert.KernelIdeal.Bridge.run_result_at_end (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.RefValue.result_is_two_layers, a0, a1, a2, a3, a4, a5, a6, a7, a8, a9, a10,
    ← Cert.ReferenceIdeal.RefValue.layers_agree, ← Cert.ReferenceIdeal.RefValue.layers_agree]
  exact (Cert.KernelIdeal.Bridge.result_value m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
